-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg16 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg13 : FVec F S128x128 .f32) (main_arg14 : FVec F S128 .f32) (main_arg15 : FVec F S128x64 .f32) (main_arg16 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg15
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg16 main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x64 .f32) (main_arg16 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 57
  | .vmem => 46
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S1x128, .f32⟩
  | .hbm, ⟨31, _⟩ => ⟨S50000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S50000x128, .f32⟩
  | .hbm, ⟨43, _⟩ => ⟨S600000x1, .i32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S1x64, .f32⟩
  | .hbm, ⟨56, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x64, .f32⟩
  | .local _ .vmem, ⟨43, _⟩ => ⟨S1x64, .f32⟩
  | .local _ .vmem, ⟨44, _⟩ => ⟨S5000x64, .f32⟩
  | .local _ .vmem, ⟨45, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c_1 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v26) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v27) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v27) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v28) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v29) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v31) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v31) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v32) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v33) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S600000x1 : Shape := ⟨2, ![600000, 1]⟩
abbrev S600000x128 : Shape := ⟨2, ![600000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S_, .i32⟩
  | .hbm, ⟨18, _⟩ => ⟨S600000, .i32⟩
  | .hbm, ⟨19, _⟩ => ⟨S600000, .i1⟩
  | .hbm, ⟨20, _⟩ => ⟨S_, .i32⟩
  | .hbm, ⟨21, _⟩ => ⟨S600000, .i32⟩
  | .hbm, ⟨22, _⟩ => ⟨S600000, .i32⟩
  | .hbm, ⟨23, _⟩ => ⟨S600000, .i32⟩
  | .hbm, ⟨24, _⟩ => ⟨S600000x1, .i32⟩
  | .hbm, ⟨25, _⟩ => ⟨S600000x128, .f32⟩
  | .hbm, ⟨26, _⟩ => ⟨S_, .f32⟩
  | .hbm, ⟨27, _⟩ => ⟨S50000x128, .f32⟩
  | .hbm, ⟨28, _⟩ => ⟨S600000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S_, .f32⟩
  | .hbm, ⟨37, _⟩ => ⟨S50000x128, .f32⟩
  | .hbm, ⟨38, _⟩ => ⟨S50000x128, .i1⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S600000, .i32⟩
  | .hbm, ⟨45, _⟩ => ⟨S600000, .i1⟩
  | .hbm, ⟨46, _⟩ => ⟨S_, .i32⟩
  | .hbm, ⟨47, _⟩ => ⟨S600000, .i32⟩
  | .hbm, ⟨48, _⟩ => ⟨S600000, .i32⟩
  | .hbm, ⟨49, _⟩ => ⟨S600000, .i32⟩
  | .hbm, ⟨50, _⟩ => ⟨S600000x1, .i32⟩
  | .hbm, ⟨51, _⟩ => ⟨S600000x128, .f32⟩
  | .hbm, ⟨52, _⟩ => ⟨S_, .f32⟩
  | .hbm, ⟨53, _⟩ => ⟨S50000x128, .f32⟩
  | .hbm, ⟨54, _⟩ => ⟨S600000x1, .i32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S_, .f32⟩
  | .hbm, ⟨63, _⟩ => ⟨S50000x128, .f32⟩
  | .hbm, ⟨64, _⟩ => ⟨S50000x128, .i1⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S_, .f32⟩
  | .hbm, ⟨75, _⟩ => ⟨S50000x128, .f32⟩
  | .hbm, ⟨76, _⟩ => ⟨S50000x128, .i1⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S_, .f32⟩
  | .hbm, ⟨87, _⟩ => ⟨S50000x128, .f32⟩
  | .hbm, ⟨88, _⟩ => ⟨S50000x128, .i1⟩
  | .hbm, ⟨89, _⟩ => ⟨S_, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S_, .f32⟩
  | .hbm, ⟨99, _⟩ => ⟨S50000x128, .f32⟩
  | .hbm, ⟨100, _⟩ => ⟨S50000x128, .i1⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S1x128, .f32⟩
  | .hbm, ⟨107, _⟩ => ⟨S50000x128, .f32⟩
  | .hbm, ⟨108, _⟩ => ⟨S50000x128, .f32⟩
  | .hbm, ⟨109, _⟩ => ⟨S_, .f32⟩
  | .hbm, ⟨110, _⟩ => ⟨S_, .f32⟩
  | .hbm, ⟨111, _⟩ => ⟨S50000x128, .f32⟩
  | .hbm, ⟨112, _⟩ => ⟨S50000x128, .i1⟩
  | .hbm, ⟨113, _⟩ => ⟨S_, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S50000x64, .f32⟩
  | .hbm, ⟨118, _⟩ => ⟨S1x64, .f32⟩
  | .hbm, ⟨119, _⟩ => ⟨S50000x64, .f32⟩
  | .hbm, ⟨120, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v15 : Ref sig .tc := ⟨.hbm, 42, rfl⟩
abbrev main_c_2 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_cst_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_5 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_6 : Ref sig .tc := ⟨.hbm, 73, rfl⟩
abbrev main_call2_cst : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_7 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_cst_8 : Ref sig .tc := ⟨.hbm, 97, rfl⟩
abbrev main_call4_cst : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_call4_v3 : Ref sig .tc := ⟨.hbm, 102, rfl⟩
abbrev main_call4_v4 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_cst_9 : Ref sig .tc := ⟨.hbm, 109, rfl⟩
abbrev main_call5_cst : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with its result named.

  @main is seven pipelined regions among stretches of host operations.  The buffer contents at each of the
  fourteen boundaries are a fold from the launch memory: a stretch applies its host operations, a region
  leaves its arrays at what its write-backs leave and every other buffer as it was.  Every weakly fair
  execution terminates, nothing faults, each argument ends as launched, and the result buffer ends at the
  last boundary's contents: the statement below is the frame statement with that one equation added, read
  off the same final state.
-/
import proofs.«164340_j13975823581719_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer at the last boundary's contents, the arguments as launched. -/
theorem run_main : θ_run defs (onTc (τ := τ) (main (F := F))) ⟨m, fun _ => 0, ρ⟩ (fun r => ∀ c : Dev nD,
      r.2.mem ((c.tc : Thread nD τ).loc main_v33) = W14 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v33 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

end Cert.KernelIdeal.RunValue

end
-- ==== Proof.KKept.lean ====
/-
  The idealized kernel program between its regions: what each boundary's buffers hold.

  The program's buffer contents at its fourteen boundaries are a fold from the launch memory.  No host
  operation and no region writes an argument, so every argument holds its launch contents at every
  boundary (an argument is at most an INPUT array of a region, which the region leaves as found).
-/
import proofs.«164340_j13975823581719_1_alg».proof.Proof.Gen.KernelIdeal.Frame
import Idealize.ShloMosaic.Lib.StableHlo.Run

set_option maxRecDepth 16384

noncomputable section

namespace Cert.KernelIdeal.ChainValue

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- The seventeen argument buffers. -/
abbrev argRefs : List (Ref sig .tc) :=
  [main_arg0, main_arg1, main_arg2, main_arg3, main_arg4, main_arg5, main_arg6, main_arg7, main_arg8, main_arg9, main_arg10, main_arg11, main_arg12, main_arg13, main_arg14, main_arg15, main_arg16]

/-- At launch every buffer holds the launch memory. -/
theorem kept0 : ∀ a ∈ argRefs, W0 m ρ c (Proc.devRef .tc a) = m ((c : Thread nD τ).loc a) := fun _ _ => rfl

/-- Stretch 0 writes no argument. -/
theorem kept1 : ∀ a ∈ argRefs, W1 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals exact (StableHlo.after_of_forall_not_mem (b := Proc.devRef .tc _) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (kept0 m ρ c _ ha')

/-- Region 0 leaves every argument as it found it: an argument is one of its input arrays or none of its arrays. -/
theorem kept2 : ∀ a ∈ argRefs, W2 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals first
    | exact (W2_of_ne m ρ c _ (by decide)).trans (kept1 m ρ c _ ha')
    | exact ((W2_arr m ρ c 0).trans (((dat0 (V1 m ρ) c).arrAt_in 0 rfl _).trans (A_eq0 (V1 m ρ) c 0))).trans (kept1 m ρ c _ ha')
    | exact ((W2_arr m ρ c 2).trans (((dat0 (V1 m ρ) c).arrAt_in 2 rfl _).trans (A_eq0 (V1 m ρ) c 2))).trans (kept1 m ρ c _ ha')

/-- Stretch 1 writes no argument. -/
theorem kept3 : ∀ a ∈ argRefs, W3 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals exact (StableHlo.after_of_forall_not_mem (b := Proc.devRef .tc _) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (kept2 m ρ c _ ha')

/-- Region 1 leaves every argument as it found it: an argument is one of its input arrays or none of its arrays. -/
theorem kept4 : ∀ a ∈ argRefs, W4 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals first
    | exact (W4_of_ne m ρ c _ (by decide)).trans (kept3 m ρ c _ ha')
    | exact ((W4_arr m ρ c 2).trans (((dat1 (V3 m ρ) c).arrAt_in 2 rfl _).trans (A_eq1 (V3 m ρ) c 2))).trans (kept3 m ρ c _ ha')

/-- Stretch 2 writes no argument. -/
theorem kept5 : ∀ a ∈ argRefs, W5 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals exact (StableHlo.after_of_forall_not_mem (b := Proc.devRef .tc _) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (kept4 m ρ c _ ha')

/-- Region 2 leaves every argument as it found it: an argument is one of its input arrays or none of its arrays. -/
theorem kept6 : ∀ a ∈ argRefs, W6 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals first
    | exact (W6_of_ne m ρ c _ (by decide)).trans (kept5 m ρ c _ ha')
    | exact ((W6_arr m ρ c 1).trans (((dat2 (V5 m ρ) c).arrAt_in 1 rfl _).trans (A_eq2 (V5 m ρ) c 1))).trans (kept5 m ρ c _ ha')

/-- Stretch 3 writes no argument. -/
theorem kept7 : ∀ a ∈ argRefs, W7 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals exact (StableHlo.after_of_forall_not_mem (b := Proc.devRef .tc _) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (kept6 m ρ c _ ha')

/-- Region 3 leaves every argument as it found it: an argument is one of its input arrays or none of its arrays. -/
theorem kept8 : ∀ a ∈ argRefs, W8 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals first
    | exact (W8_of_ne m ρ c _ (by decide)).trans (kept7 m ρ c _ ha')
    | exact ((W8_arr m ρ c 1).trans (((dat3 (V7 m ρ) c).arrAt_in 1 rfl _).trans (A_eq3 (V7 m ρ) c 1))).trans (kept7 m ρ c _ ha')

/-- Stretch 4 writes no argument. -/
theorem kept9 : ∀ a ∈ argRefs, W9 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals exact (StableHlo.after_of_forall_not_mem (b := Proc.devRef .tc _) _ _ (List.forall_iff_forall_mem.mp (by
    simp only [hostOps4, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (kept8 m ρ c _ ha')

/-- Region 4 leaves every argument as it found it: an argument is one of its input arrays or none of its arrays. -/
theorem kept10 : ∀ a ∈ argRefs, W10 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals first
    | exact (W10_of_ne m ρ c _ (by decide)).trans (kept9 m ρ c _ ha')
    | exact ((W10_arr m ρ c 1).trans (((dat4 (V9 m ρ) c).arrAt_in 1 rfl _).trans (A_eq4 (V9 m ρ) c 1))).trans (kept9 m ρ c _ ha')

/-- Stretch 5 writes no argument. -/
theorem kept11 : ∀ a ∈ argRefs, W11 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals exact (StableHlo.after_of_forall_not_mem (b := Proc.devRef .tc _) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (kept10 m ρ c _ ha')

/-- Region 5 leaves every argument as it found it: an argument is one of its input arrays or none of its arrays. -/
theorem kept12 : ∀ a ∈ argRefs, W12 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals first
    | exact (W12_of_ne m ρ c _ (by decide)).trans (kept11 m ρ c _ ha')
    | exact ((W12_arr m ρ c 1).trans (((dat5 (V11 m ρ) c).arrAt_in 1 rfl _).trans (A_eq5 (V11 m ρ) c 1))).trans (kept11 m ρ c _ ha')

/-- Stretch 6 writes no argument. -/
theorem kept13 : ∀ a ∈ argRefs, W13 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals exact (StableHlo.after_of_forall_not_mem (b := Proc.devRef .tc _) _ _ (List.forall_iff_forall_mem.mp (by
    simp only [hostOps6, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans (kept12 m ρ c _ ha')

/-- Region 6 leaves every argument as it found it: an argument is one of its input arrays or none of its arrays. -/
theorem kept14 : ∀ a ∈ argRefs, W14 m ρ c (Proc.devRef .tc a) = m ((c : Thread nD τ).loc a) := by
  intro a ha
  have ha' := ha
  simp only [argRefs, List.mem_cons, List.not_mem_nil, or_false] at ha
  rcases ha with rfl | rfl | rfl | rfl | rfl | rfl | rfl | rfl | rfl | rfl | rfl | rfl | rfl | rfl | rfl | rfl | rfl
  all_goals first
    | exact (W14_of_ne m ρ c _ (by decide)).trans (kept13 m ρ c _ ha')
    | exact ((W14_arr m ρ c 1).trans (((dat6 (V13 m ρ) c).arrAt_in 1 rfl _).trans (A_eq6 (V13 m ρ) c 1))).trans (kept13 m ρ c _ ha')

end Cert.KernelIdeal.ChainValue

end
-- ==== Proof.Spec.lean ====
/-
  The network both programs compute, stated once, index by index, over the extended reals.

  A dense layer sends a matrix X (M rows, K columns), a weight matrix W (K by N) and a bias b (N entries)
  to the matrix whose entry (r, q) is  (sum over k of X(r,k) * W(k,q)) + b(q).  The leaky rectifier keeps
  a value z when z >= 0 and replaces it by slope * z otherwise, the slope being the single-precision word
  nearest to 0.01; it is kept here exactly as the comparison and the choice that compute it.  A graph
  layer feeds a dense layer with X + A, where A is the neighbourhood sum of X (the rows of X gathered
  along the edges' sources and added up at the edges' targets); that sum enters only as a function
  `agg` of X, and nothing below depends on what it is.

  The network: two graph layers and four dense layers, each followed by the leaky rectifier, then one
  dense layer without it.
-/
import Idealize.ShloMosaic.Lib.ValueIdx
import Idealize.ShloMosaic.PureOps.Ideal

noncomputable section

open scoped BigOperators

namespace Cert.GinSpec

open Idealize.ShloMosaic Idealize.ShloMosaic.ValueIdx

/-- The leaky rectifier on one extended real: z where z >= 0, slope * z elsewhere. -/
def leaky (z : EReal) : EReal :=
  Scalar.select (FloatOps.cmpf (F := Ideal) (φ := .f32) .oge z (Ideal.ofBits .f32 0x00000000#32)) z
    (Ideal.ofBits .f32 0x3C23D70A#32 * z)

/-- Entry (r, q) of X * W + b: the sum over k of X(r,k) * W(k,q), plus b(q). -/
def affine {M K N : Nat} (X : (⟨2, ![M, K]⟩ : Shape).Idx → EReal) (W : (⟨2, ![K, N]⟩ : Shape).Idx → EReal)
    (b : Fin N → EReal) : (⟨2, ![M, N]⟩ : Shape).Idx → EReal :=
  fun i => (∑ k : Fin K, X (ix2 (i 0) k) * W (ix2 k (i 1))) + b (i 1)

/-- A dense layer followed by the leaky rectifier. -/
def linLayer {M K N : Nat} (X : (⟨2, ![M, K]⟩ : Shape).Idx → EReal) (W : (⟨2, ![K, N]⟩ : Shape).Idx → EReal)
    (b : Fin N → EReal) : (⟨2, ![M, N]⟩ : Shape).Idx → EReal :=
  fun i => leaky (affine X W b i)

/-- A graph layer: the dense layer of X + A, followed by the leaky rectifier. -/
def resLayer {M K N : Nat} (X A : (⟨2, ![M, K]⟩ : Shape).Idx → EReal) (W : (⟨2, ![K, N]⟩ : Shape).Idx → EReal)
    (b : Fin N → EReal) : (⟨2, ![M, N]⟩ : Shape).Idx → EReal :=
  fun i => leaky (affine (fun j => X j + A j) W b i)

/-- The neighbourhood sum as the host computes it, for any gather and scatter dimension records over these
    shapes: the sources' indices are normalised (a negative index has 50000 added), the rows of x at them are
    gathered, and the gathered rows are added into a zero matrix at the targets' indices. -/
def aggOf (g : GatherDims ⟨2, ![50000, 128]⟩ ⟨2, ![600000, 1]⟩ ⟨2, ![600000, 128]⟩)
    (sc : ScatterDims ⟨2, ![50000, 128]⟩ ⟨2, ![600000, 1]⟩ ⟨2, ![600000, 128]⟩)
    (h0 : (⟨0, ![]⟩ : Shape).BroadcastsInDim ⟨1, ![600000]⟩ (![] : Fin 0 → Fin 1))
    (h1 : (⟨1, ![600000]⟩ : Shape).BroadcastsInDim ⟨2, ![600000, 1]⟩ (![0] : Fin 1 → Fin 2))
    (h2 : (⟨0, ![]⟩ : Shape).BroadcastsInDim ⟨2, ![50000, 128]⟩ (![] : Fin 0 → Fin 2))
    (src dst : IVec ⟨1, ![600000]⟩ 32) (x : FVec Ideal ⟨2, ![50000, 128]⟩ .f32) : FVec Ideal ⟨2, ![50000, 128]⟩ .f32 :=
  Host.scatterAdd (F := Ideal) sc
    (broadcastInDim ⟨2, ![50000, 128]⟩ ![] h2 (constant (F := Ideal) ⟨0, ![]⟩ .f32 0x00000000#32))
    (broadcastInDim ⟨2, ![600000, 1]⟩ ![0] h1 dst)
    (Host.gather g x (broadcastInDim ⟨2, ![600000, 1]⟩ ![0] h1
      (select (cmpi .slt src (broadcastInDim ⟨1, ![600000]⟩ ![] h0 (constantI ⟨0, ![]⟩ 32 0#32)))
        (addi src (broadcastInDim ⟨1, ![600000]⟩ ![] h0 (constantI ⟨0, ![]⟩ 32 50000#32))) src)))

/-- The whole network on 50000 nodes: 128 features in, 64 out. -/
def net (agg : ((⟨2, ![50000, 128]⟩ : Shape).Idx → EReal) → (⟨2, ![50000, 128]⟩ : Shape).Idx → EReal)
    (x : (⟨2, ![50000, 128]⟩ : Shape).Idx → EReal)
    (W1 : (⟨2, ![128, 128]⟩ : Shape).Idx → EReal) (b1 : Fin 128 → EReal)
    (W2 : (⟨2, ![128, 128]⟩ : Shape).Idx → EReal) (b2 : Fin 128 → EReal)
    (W3 : (⟨2, ![128, 128]⟩ : Shape).Idx → EReal) (b3 : Fin 128 → EReal)
    (W4 : (⟨2, ![128, 128]⟩ : Shape).Idx → EReal) (b4 : Fin 128 → EReal)
    (W5 : (⟨2, ![128, 128]⟩ : Shape).Idx → EReal) (b5 : Fin 128 → EReal)
    (W6 : (⟨2, ![128, 128]⟩ : Shape).Idx → EReal) (b6 : Fin 128 → EReal)
    (W7 : (⟨2, ![128, 64]⟩ : Shape).Idx → EReal) (b7 : Fin 64 → EReal) :
    (⟨2, ![50000, 64]⟩ : Shape).Idx → EReal :=
  let h1 := resLayer x (agg x) W1 b1
  let h2 := resLayer h1 (agg h1) W2 b2
  let h3 := linLayer h2 W3 b3
  let h4 := linLayer h3 W4 b4
  let h5 := linLayer h4 W5 b5
  let h6 := linLayer h5 W6 b6
  affine h6 W7 b7

end Cert.GinSpec

end
-- ==== Proof.KChain.lean ====
/-
  The idealized kernel program's result as the network of the specification.

  Region by region: a region's output array is the layer of its input arrays (the seven equations taken
  as hypotheses here and supplied by the regions' own value lemmas); between regions the host computes the
  neighbourhood sum of the previous layer's output and views the next bias vector as one row.  Folding the
  fourteen boundaries from the launch memory, the result buffer holds the network of the arguments.
-/
import proofs.«164340_j13975823581719_1_alg».proof.Proof.KKept
import proofs.«164340_j13975823581719_1_alg».proof.Proof.Spec
import Idealize.ShloMosaic.Lib.Pipeline.Value
import Idealize.ShloMosaic.Lib.ValueIdx

set_option maxRecDepth 16384

noncomputable section

namespace Cert.KernelIdeal.ChainValue

open Cert.KernelIdeal Cert.KernelIdeal.Gen
open Idealize.ShloMosaic Idealize.ShloMosaic.TcCoe Idealize.SL.Sem Idealize.ShloMosaic.ValueIdx
open Idealize.ShloMosaic.Pipeline (Dat)

/-- The kernel program's neighbourhood sum with the edges fixed. -/
def aggK (src dst : IVec S600000 32) : FVec Ideal S50000x128 .f32 → FVec Ideal S50000x128 .f32 :=
  Cert.GinSpec.aggOf gather_S50000x128_S600000x1_S600000x128_1_0_n_n_0_1_1128 scatter_S50000x128_S600000x1_S600000x128_1_0_0_1
    Facts₀.bcast_S_S600000 Facts₀.bcast_S600000_S600000x1_0 Facts₀.bcast_S_S50000x128 src dst

/-- A vector of n entries viewed as one row [1, n], read at (0, q), is entry q. -/
theorem row_of_cast {n : Nat} (a : (⟨1, ![n]⟩ : Shape).Idx → EReal) (h : (⟨1, ![n]⟩ : Shape).ShapeCasts ⟨2, ![1, n]⟩) :
    (fun q : Fin n => shapeCast (⟨2, ![1, n]⟩ : Shape) a h (ix2 0 q)) = fun q => a (ix1 q) := by
  funext q
  refine shapeCast_apply a h (ix2 0 q) (ix1 q) ?_
  rw [Shape.rowMajor_val_one, Shape.rowMajor_val_two]
  show q.val = (0 : Fin 1).val * n + q.val
  rw [Fin.val_zero, Nat.zero_mul, Nat.zero_add]

variable (m : (ℓ : Loc nD τ sig) → Buf (Elt Ideal) ℓ) (ρ : Dev nD → PrngReg) (c : Dev nD)

attribute [local irreducible] Host.gather Host.scatterAdd

/-- After the first stretch the neighbourhood-sum buffer holds the sum of the features. -/
theorem w1_v9 : W1 m ρ c (Proc.devRef .tc main_v9)
    = aggK (m ((c : Thread nD τ).loc main_arg1)) (m ((c : Thread nD τ).loc main_arg2)) (m ((c : Thread nD τ).loc main_arg0)) := by
  show StableHlo.after hostOps0 (W0 m ρ c) (Proc.devRef .tc main_v9) = _
  after_results
  rfl

/-- After the first stretch the first bias row holds the first bias vector viewed as one row. -/
theorem w1_v10 : W1 m ρ c (Proc.devRef .tc main_v10)
    = shapeCast S1x128 (m ((c : Thread nD τ).loc main_arg4)) Facts₀.shapeCasts_S128_S1x128 := by
  show StableHlo.after hostOps0 (W0 m ρ c) (Proc.devRef .tc main_v10) = _
  after_results
  rfl

/-- The second stretch computes the neighbourhood sum of the first region's output. -/
theorem w3_v21 : W3 m ρ c (Proc.devRef .tc main_v21)
    = aggK (W2 m ρ c (Proc.devRef .tc main_arg1)) (W2 m ρ c (Proc.devRef .tc main_arg2)) (W2 m ρ c (Proc.devRef .tc main_v11)) := by
  show StableHlo.after hostOps1 (W2 m ρ c) (Proc.devRef .tc main_v21) = _
  after_results
  rfl

theorem w3_v22 : W3 m ρ c (Proc.devRef .tc main_v22)
    = shapeCast S1x128 (W2 m ρ c (Proc.devRef .tc main_arg6)) Facts₀.shapeCasts_S128_S1x128 := by
  show StableHlo.after hostOps1 (W2 m ρ c) (Proc.devRef .tc main_v22) = _
  after_results
  rfl

theorem w3_v11 : W3 m ρ c (Proc.devRef .tc main_v11) = W2 m ρ c (Proc.devRef .tc main_v11) := by
  show StableHlo.after hostOps1 (W2 m ρ c) (Proc.devRef .tc main_v11) = _
  after_results

/-- The later stretches view the next bias vector as one row and touch nothing else. -/
theorem w5_v24 : W5 m ρ c (Proc.devRef .tc main_v24)
    = shapeCast S1x128 (W4 m ρ c (Proc.devRef .tc main_arg8)) Facts₀.shapeCasts_S128_S1x128 := by
  show StableHlo.after hostOps2 (W4 m ρ c) (Proc.devRef .tc main_v24) = _
  after_results
  rfl
theorem w5_v23 : W5 m ρ c (Proc.devRef .tc main_v23) = W4 m ρ c (Proc.devRef .tc main_v23) := by
  show StableHlo.after hostOps2 (W4 m ρ c) (Proc.devRef .tc main_v23) = _
  after_results

theorem w7_v26 : W7 m ρ c (Proc.devRef .tc main_v26)
    = shapeCast S1x128 (W6 m ρ c (Proc.devRef .tc main_arg10)) Facts₀.shapeCasts_S128_S1x128 := by
  show StableHlo.after hostOps3 (W6 m ρ c) (Proc.devRef .tc main_v26) = _
  after_results
  rfl
theorem w7_v25 : W7 m ρ c (Proc.devRef .tc main_v25) = W6 m ρ c (Proc.devRef .tc main_v25) := by
  show StableHlo.after hostOps3 (W6 m ρ c) (Proc.devRef .tc main_v25) = _
  after_results

theorem w9_v28 : W9 m ρ c (Proc.devRef .tc main_v28)
    = shapeCast S1x128 (W8 m ρ c (Proc.devRef .tc main_arg12)) Facts₀.shapeCasts_S128_S1x128 := by
  show StableHlo.after hostOps4 (W8 m ρ c) (Proc.devRef .tc main_v28) = _
  after_results
  rfl
theorem w9_v27 : W9 m ρ c (Proc.devRef .tc main_v27) = W8 m ρ c (Proc.devRef .tc main_v27) := by
  show StableHlo.after hostOps4 (W8 m ρ c) (Proc.devRef .tc main_v27) = _
  after_results

theorem w11_v30 : W11 m ρ c (Proc.devRef .tc main_v30)
    = shapeCast S1x128 (W10 m ρ c (Proc.devRef .tc main_arg14)) Facts₀.shapeCasts_S128_S1x128 := by
  show StableHlo.after hostOps5 (W10 m ρ c) (Proc.devRef .tc main_v30) = _
  after_results
  rfl
theorem w11_v29 : W11 m ρ c (Proc.devRef .tc main_v29) = W10 m ρ c (Proc.devRef .tc main_v29) := by
  show StableHlo.after hostOps5 (W10 m ρ c) (Proc.devRef .tc main_v29) = _
  after_results

theorem w13_v32 : W13 m ρ c (Proc.devRef .tc main_v32)
    = shapeCast S1x64 (W12 m ρ c (Proc.devRef .tc main_arg16)) Facts₀.shapeCasts_S64_S1x64 := by
  show StableHlo.after hostOps6 (W12 m ρ c) (Proc.devRef .tc main_v32) = _
  after_results
  rfl
theorem w13_v31 : W13 m ρ c (Proc.devRef .tc main_v31) = W12 m ρ c (Proc.devRef .tc main_v31) := by
  show StableHlo.after hostOps6 (W12 m ρ c) (Proc.devRef .tc main_v31) = _
  after_results

/-! ## The layers' values, from the launch memory -/

/-- The first graph layer's output. -/
def hid1 : FVec Ideal S50000x128 .f32 :=
  Cert.GinSpec.resLayer (m ((c : Thread nD τ).loc main_arg0)) (aggK (m ((c : Thread nD τ).loc main_arg1)) (m ((c : Thread nD τ).loc main_arg2)) (m ((c : Thread nD τ).loc main_arg0)))
    (m ((c : Thread nD τ).loc main_arg3)) (fun q => (m ((c : Thread nD τ).loc main_arg4)) (ix1 q))
/-- The second graph layer's output. -/
def hid2 : FVec Ideal S50000x128 .f32 :=
  Cert.GinSpec.resLayer (hid1 m c) (aggK (m ((c : Thread nD τ).loc main_arg1)) (m ((c : Thread nD τ).loc main_arg2)) (hid1 m c))
    (m ((c : Thread nD τ).loc main_arg5)) (fun q => (m ((c : Thread nD τ).loc main_arg6)) (ix1 q))
/-- The four dense layers' outputs. -/
def hid3 : FVec Ideal S50000x128 .f32 := Cert.GinSpec.linLayer (hid2 m c) (m ((c : Thread nD τ).loc main_arg7)) (fun q => (m ((c : Thread nD τ).loc main_arg8)) (ix1 q))
def hid4 : FVec Ideal S50000x128 .f32 := Cert.GinSpec.linLayer (hid3 m c) (m ((c : Thread nD τ).loc main_arg9)) (fun q => (m ((c : Thread nD τ).loc main_arg10)) (ix1 q))
def hid5 : FVec Ideal S50000x128 .f32 := Cert.GinSpec.linLayer (hid4 m c) (m ((c : Thread nD τ).loc main_arg11)) (fun q => (m ((c : Thread nD τ).loc main_arg12)) (ix1 q))
def hid6 : FVec Ideal S50000x128 .f32 := Cert.GinSpec.linLayer (hid5 m c) (m ((c : Thread nD τ).loc main_arg13)) (fun q => (m ((c : Thread nD τ).loc main_arg14)) (ix1 q))
/-- The last dense layer's output: the program's result. -/
def outK : FVec Ideal S50000x64 .f32 := Cert.GinSpec.affine (hid6 m c) (m ((c : Thread nD τ).loc main_arg15)) (fun q => (m ((c : Thread nD τ).loc main_arg16)) (ix1 q))

/-- The layers nested one in the other are the specification's network. -/
theorem outK_eq_net : outK m c = Cert.GinSpec.net (aggK (m ((c : Thread nD τ).loc main_arg1)) (m ((c : Thread nD τ).loc main_arg2))) (m ((c : Thread nD τ).loc main_arg0))
    (m ((c : Thread nD τ).loc main_arg3)) (fun q => (m ((c : Thread nD τ).loc main_arg4)) (ix1 q)) (m ((c : Thread nD τ).loc main_arg5)) (fun q => (m ((c : Thread nD τ).loc main_arg6)) (ix1 q)) (m ((c : Thread nD τ).loc main_arg7)) (fun q => (m ((c : Thread nD τ).loc main_arg8)) (ix1 q))
    (m ((c : Thread nD τ).loc main_arg9)) (fun q => (m ((c : Thread nD τ).loc main_arg10)) (ix1 q)) (m ((c : Thread nD τ).loc main_arg11)) (fun q => (m ((c : Thread nD τ).loc main_arg12)) (ix1 q)) (m ((c : Thread nD τ).loc main_arg13)) (fun q => (m ((c : Thread nD τ).loc main_arg14)) (ix1 q))
    (m ((c : Thread nD τ).loc main_arg15)) (fun q => (m ((c : Thread nD τ).loc main_arg16)) (ix1 q)) := rfl

/-! ## The chain -/

/-- The seven regions' value equations, each at any entry contents: a region's output array is the layer of
    its input arrays. -/
structure RegionEqs (c : Dev nD) : Prop where
  r0 : ∀ V : (c : Dev nD) → (b : Ref sig .tc) → Buf (Elt Ideal) ((c : Thread nD τ).loc b), (dat0 (F := Ideal) V c).arrAt 4 cfg0.N
      = Cert.GinSpec.resLayer (V c main_arg0) (V c main_v9) (V c main_arg3) (fun q => V c main_v10 (ix2 0 q))
  r1 : ∀ V : (c : Dev nD) → (b : Ref sig .tc) → Buf (Elt Ideal) ((c : Thread nD τ).loc b), (dat1 (F := Ideal) V c).arrAt 4 cfg1.N
      = Cert.GinSpec.resLayer (V c main_v11) (V c main_v21) (V c main_arg5) (fun q => V c main_v22 (ix2 0 q))
  r2 : ∀ V : (c : Dev nD) → (b : Ref sig .tc) → Buf (Elt Ideal) ((c : Thread nD τ).loc b), (dat2 (F := Ideal) V c).arrAt 3 cfg2.N
      = Cert.GinSpec.linLayer (V c main_v23) (V c main_arg7) (fun q => V c main_v24 (ix2 0 q))
  r3 : ∀ V : (c : Dev nD) → (b : Ref sig .tc) → Buf (Elt Ideal) ((c : Thread nD τ).loc b), (dat3 (F := Ideal) V c).arrAt 3 cfg3.N
      = Cert.GinSpec.linLayer (V c main_v25) (V c main_arg9) (fun q => V c main_v26 (ix2 0 q))
  r4 : ∀ V : (c : Dev nD) → (b : Ref sig .tc) → Buf (Elt Ideal) ((c : Thread nD τ).loc b), (dat4 (F := Ideal) V c).arrAt 3 cfg4.N
      = Cert.GinSpec.linLayer (V c main_v27) (V c main_arg11) (fun q => V c main_v28 (ix2 0 q))
  r5 : ∀ V : (c : Dev nD) → (b : Ref sig .tc) → Buf (Elt Ideal) ((c : Thread nD τ).loc b), (dat5 (F := Ideal) V c).arrAt 3 cfg5.N
      = Cert.GinSpec.linLayer (V c main_v29) (V c main_arg13) (fun q => V c main_v30 (ix2 0 q))
  r6 : ∀ V : (c : Dev nD) → (b : Ref sig .tc) → Buf (Elt Ideal) ((c : Thread nD τ).loc b), (dat6 (F := Ideal) V c).arrAt 3 cfg6.N
      = Cert.GinSpec.affine (V c main_v31) (V c main_arg15) (fun q => V c main_v32 (ix2 0 q))

variable (hR : RegionEqs c)
include hR

/-- The first region's output array holds the first graph layer. -/
theorem at2 : W2 m ρ c (Proc.devRef .tc main_v11) = hid1 m c := by
  have k1 := kept1 m ρ c
  refine (W2_arr m ρ c 4).trans ((hR.r0 (V1 m ρ)).trans ?_)
  have ea : V1 m ρ c main_arg0 = (m ((c : Thread nD τ).loc main_arg0)) := k1 main_arg0 (by decide)
  have eb : V1 m ρ c main_v9 = aggK (m ((c : Thread nD τ).loc main_arg1)) (m ((c : Thread nD τ).loc main_arg2)) (m ((c : Thread nD τ).loc main_arg0)) := w1_v9 m ρ c
  have ec : V1 m ρ c main_arg3 = (m ((c : Thread nD τ).loc main_arg3)) := k1 main_arg3 (by decide)
  have ed : (fun q : Fin 128 => V1 m ρ c main_v10 (ix2 0 q)) = (fun q => (m ((c : Thread nD τ).loc main_arg4)) (ix1 q)) := by
    show (fun q : Fin 128 => W1 m ρ c (Proc.devRef .tc main_v10) (ix2 0 q)) = _
    rw [w1_v10 m ρ c]; exact row_of_cast _ _
  rw [ea, eb, ec, ed]; rfl

/-- The second region's output array holds the second graph layer. -/
theorem at4 : W4 m ρ c (Proc.devRef .tc main_v23) = hid2 m c := by
  have k2 := kept2 m ρ c
  have k3 := kept3 m ρ c
  have e2 := at2 m ρ c hR
  refine (W4_arr m ρ c 4).trans ((hR.r1 (V3 m ρ)).trans ?_)
  have ea : V3 m ρ c main_v11 = hid1 m c := (w3_v11 m ρ c).trans e2
  have eb : V3 m ρ c main_v21 = aggK (m ((c : Thread nD τ).loc main_arg1)) (m ((c : Thread nD τ).loc main_arg2)) (hid1 m c) := by
    refine (w3_v21 m ρ c).trans ?_
    rw [k2 main_arg1 (by decide), k2 main_arg2 (by decide), e2]
  have ec : V3 m ρ c main_arg5 = (m ((c : Thread nD τ).loc main_arg5)) := k3 main_arg5 (by decide)
  have ed : (fun q : Fin 128 => V3 m ρ c main_v22 (ix2 0 q)) = (fun q => (m ((c : Thread nD τ).loc main_arg6)) (ix1 q)) := by
    show (fun q : Fin 128 => W3 m ρ c (Proc.devRef .tc main_v22) (ix2 0 q)) = _
    rw [w3_v22 m ρ c, k2 main_arg6 (by decide)]; exact row_of_cast _ _
  rw [ea, eb, ec, ed]; rfl

/-- The third region's output array holds the next dense layer. -/
theorem at6 : W6 m ρ c (Proc.devRef .tc main_v25) = hid3 m c := by
  have k4 := kept4 m ρ c
  have k5 := kept5 m ρ c
  have ep := at4 m ρ c hR
  refine (W6_arr m ρ c 3).trans ((hR.r2 (V5 m ρ)).trans ?_)
  have ea : V5 m ρ c main_v23 = hid2 m c := (w5_v23 m ρ c).trans ep
  have ec : V5 m ρ c main_arg7 = (m ((c : Thread nD τ).loc main_arg7)) := k5 main_arg7 (by decide)
  have ed : (fun q : Fin 128 => V5 m ρ c main_v24 (ix2 0 q)) = (fun q => (m ((c : Thread nD τ).loc main_arg8)) (ix1 q)) := by
    show (fun q : Fin 128 => W5 m ρ c (Proc.devRef .tc main_v24) (ix2 0 q)) = _
    rw [w5_v24 m ρ c, k4 main_arg8 (by decide)]; exact row_of_cast _ _
  rw [ea, ec, ed]; rfl

/-- The fourth region's output array holds the next dense layer. -/
theorem at8 : W8 m ρ c (Proc.devRef .tc main_v27) = hid4 m c := by
  have k6 := kept6 m ρ c
  have k7 := kept7 m ρ c
  have ep := at6 m ρ c hR
  refine (W8_arr m ρ c 3).trans ((hR.r3 (V7 m ρ)).trans ?_)
  have ea : V7 m ρ c main_v25 = hid3 m c := (w7_v25 m ρ c).trans ep
  have ec : V7 m ρ c main_arg9 = (m ((c : Thread nD τ).loc main_arg9)) := k7 main_arg9 (by decide)
  have ed : (fun q : Fin 128 => V7 m ρ c main_v26 (ix2 0 q)) = (fun q => (m ((c : Thread nD τ).loc main_arg10)) (ix1 q)) := by
    show (fun q : Fin 128 => W7 m ρ c (Proc.devRef .tc main_v26) (ix2 0 q)) = _
    rw [w7_v26 m ρ c, k6 main_arg10 (by decide)]; exact row_of_cast _ _
  rw [ea, ec, ed]; rfl

/-- The fifth region's output array holds the next dense layer. -/
theorem at10 : W10 m ρ c (Proc.devRef .tc main_v29) = hid5 m c := by
  have k8 := kept8 m ρ c
  have k9 := kept9 m ρ c
  have ep := at8 m ρ c hR
  refine (W10_arr m ρ c 3).trans ((hR.r4 (V9 m ρ)).trans ?_)
  have ea : V9 m ρ c main_v27 = hid4 m c := (w9_v27 m ρ c).trans ep
  have ec : V9 m ρ c main_arg11 = (m ((c : Thread nD τ).loc main_arg11)) := k9 main_arg11 (by decide)
  have ed : (fun q : Fin 128 => V9 m ρ c main_v28 (ix2 0 q)) = (fun q => (m ((c : Thread nD τ).loc main_arg12)) (ix1 q)) := by
    show (fun q : Fin 128 => W9 m ρ c (Proc.devRef .tc main_v28) (ix2 0 q)) = _
    rw [w9_v28 m ρ c, k8 main_arg12 (by decide)]; exact row_of_cast _ _
  rw [ea, ec, ed]; rfl

/-- The sixth region's output array holds the next dense layer. -/
theorem at12 : W12 m ρ c (Proc.devRef .tc main_v31) = hid6 m c := by
  have k10 := kept10 m ρ c
  have k11 := kept11 m ρ c
  have ep := at10 m ρ c hR
  refine (W12_arr m ρ c 3).trans ((hR.r5 (V11 m ρ)).trans ?_)
  have ea : V11 m ρ c main_v29 = hid5 m c := (w11_v29 m ρ c).trans ep
  have ec : V11 m ρ c main_arg13 = (m ((c : Thread nD τ).loc main_arg13)) := k11 main_arg13 (by decide)
  have ed : (fun q : Fin 128 => V11 m ρ c main_v30 (ix2 0 q)) = (fun q => (m ((c : Thread nD τ).loc main_arg14)) (ix1 q)) := by
    show (fun q : Fin 128 => W11 m ρ c (Proc.devRef .tc main_v30) (ix2 0 q)) = _
    rw [w11_v30 m ρ c, k10 main_arg14 (by decide)]; exact row_of_cast _ _
  rw [ea, ec, ed]; rfl

/-- Folding the boundaries: the result buffer at the last boundary holds the last layer's output. -/
theorem result : W14 m ρ c (Proc.devRef .tc main_v33) = outK m c := by
  have k12 := kept12 m ρ c
  have k13 := kept13 m ρ c
  have ep := at12 m ρ c hR
  refine (W14_arr m ρ c 3).trans ((hR.r6 (V13 m ρ)).trans ?_)
  have ea : V13 m ρ c main_v31 = hid6 m c := (w13_v31 m ρ c).trans ep
  have ec : V13 m ρ c main_arg15 = (m ((c : Thread nD τ).loc main_arg15)) := k13 main_arg15 (by decide)
  have ed : (fun q : Fin 64 => V13 m ρ c main_v32 (ix2 0 q)) = (fun q => (m ((c : Thread nD τ).loc main_arg16)) (ix1 q)) := by
    show (fun q : Fin 64 => W13 m ρ c (Proc.devRef .tc main_v32) (ix2 0 q)) = _
    rw [w13_v32 m ρ c, k12 main_arg16 (by decide)]; exact row_of_cast _ _
  rw [ea, ec, ed]; rfl

end Cert.KernelIdeal.ChainValue

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KPayload.lean ====
/-
  One block of a layer, entry by entry.

  A block holds 5000 rows.  Entry (p, q) of what a layer's body stores is the dense layer's value there:
  the sum over k of (row p of the block's input) (k) times W (k, q), plus the bias b (q) read from the single
  row that holds it, passed through the leaky rectifier where the layer has one.  In the two graph layers the
  input row is the sum of the feature row and the neighbourhood-sum row.  Rounding to the narrow format is the
  identity on extended reals, the shape casts are between equal shapes, and the product into a zero
  accumulator is the plain sum of products.
-/
import proofs.«164340_j13975823581719_1_alg».proof.Proof.Gen.KernelIdeal.Skeleton
import proofs.«164340_j13975823581719_1_alg».proof.Proof.LibPlainDot
import proofs.«164340_j13975823581719_1_alg».proof.Proof.Spec
import Idealize.ShloMosaic.Lib.Pipeline.Value

noncomputable section

open scoped BigOperators

namespace Cert.KernelIdeal.RegionValue

open Cert.KernelIdeal Cert.KernelIdeal.Gen Idealize.ShloMosaic Idealize.ShloMosaic.ValueIdx

/-- The product's dimension numbers are those of a plain 5000x128 by 128x128 product. -/
theorem dims128 : dot_S5000x128_S128x128_S5000x128_1_0_0_1_n_n = DotDims.plain 5000 128 128 := rfl

/-- The product's dimension numbers are those of a plain 5000x128 by 128x64 product. -/
theorem dims64 : dot_S5000x128_S128x64_S5000x64_1_0_0_1_n_n = DotDims.plain 5000 128 64 := rfl

/-- The comparison, the scaled copy and the choice between them, at an index, are the leaky rectifier of the
    entry there. -/
theorem leaky_at (z : FVec Ideal S5000x128 .f32) (i : S5000x128.Idx) :
    select (cmpf .oge z (broadcast S5000x128 (Scalar.ofBits (F := Ideal) .f32 0x00000000#32))) z
        (mulf (broadcast S5000x128 (Scalar.ofBits (F := Ideal) .f32 0x3C23D70A#32)) z) i
      = Cert.GinSpec.leaky (z i) := rfl

/-- The bias row spread over 5000 rows of 128 reads the row's entry in the same column. -/
theorem bias_at128 (b : Vec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => by
    match a with
    | ⟨0, _⟩ => rfl
    | ⟨1, _⟩ => rfl)

/-- The bias row spread over 5000 rows of 64 reads the row's entry in the same column. -/
theorem bias_at64 (b : Vec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => by
    match a with
    | ⟨0, _⟩ => rfl
    | ⟨1, _⟩ => rfl)

/-- Entry (p, q) of a graph layer's block (first graph layer). -/
theorem pay0_at (x0 x1 : Vec Ideal S5000x128 .f32) (x2 : Vec Ideal S128x128 .f32) (x3 : Vec Ideal S1x128 .f32)
    (p : Fin 5000) (q : Fin 128) :
    k0_pay1 (F := Ideal) x0 x1 x2 x3 (ix2 p q)
      = Cert.GinSpec.leaky ((∑ k : Fin 128, (x0 (ix2 p k) + x1 (ix2 p k)) * x2 (ix2 k q)) + x3 (ix2 0 q)) := by
  unfold k0_pay1
  simp only [shapeCast_self]
  refine (leaky_at _ _).trans (congrArg Cert.GinSpec.leaky ?_)
  refine (addf_apply _ _ _).trans (congrArg₂ (· + ·) ?_ (bias_at128 x3 p q))
  exact PlainDot.matmul_zero_apply none _ _ p q

/-- Entry (p, q) of a graph layer's block (second graph layer). -/
theorem pay1_at (x0 x1 : Vec Ideal S5000x128 .f32) (x2 : Vec Ideal S128x128 .f32) (x3 : Vec Ideal S1x128 .f32)
    (p : Fin 5000) (q : Fin 128) :
    k1_pay1 (F := Ideal) x0 x1 x2 x3 (ix2 p q)
      = Cert.GinSpec.leaky ((∑ k : Fin 128, (x0 (ix2 p k) + x1 (ix2 p k)) * x2 (ix2 k q)) + x3 (ix2 0 q)) := by
  unfold k1_pay1
  simp only [shapeCast_self]
  refine (leaky_at _ _).trans (congrArg Cert.GinSpec.leaky ?_)
  refine (addf_apply _ _ _).trans (congrArg₂ (· + ·) ?_ (bias_at128 x3 p q))
  exact PlainDot.matmul_zero_apply none _ _ p q

/-- Entry (p, q) of a dense layer's block (first dense layer). -/
theorem pay2_at (x0 : Vec Ideal S5000x128 .f32) (x1 : Vec Ideal S128x128 .f32) (x2 : Vec Ideal S1x128 .f32)
    (p : Fin 5000) (q : Fin 128) :
    k2_pay1 (F := Ideal) x0 x1 x2 (ix2 p q)
      = Cert.GinSpec.leaky ((∑ k : Fin 128, x0 (ix2 p k) * x1 (ix2 k q)) + x2 (ix2 0 q)) := by
  unfold k2_pay1
  simp only [shapeCast_self]
  refine (leaky_at _ _).trans (congrArg Cert.GinSpec.leaky ?_)
  refine (addf_apply _ _ _).trans (congrArg₂ (· + ·) ?_ (bias_at128 x2 p q))
  exact PlainDot.matmul_zero_apply none _ _ p q

/-- Entry (p, q) of a dense layer's block (second dense layer). -/
theorem pay3_at (x0 : Vec Ideal S5000x128 .f32) (x1 : Vec Ideal S128x128 .f32) (x2 : Vec Ideal S1x128 .f32)
    (p : Fin 5000) (q : Fin 128) :
    k3_pay1 (F := Ideal) x0 x1 x2 (ix2 p q)
      = Cert.GinSpec.leaky ((∑ k : Fin 128, x0 (ix2 p k) * x1 (ix2 k q)) + x2 (ix2 0 q)) := by
  unfold k3_pay1
  simp only [shapeCast_self]
  refine (leaky_at _ _).trans (congrArg Cert.GinSpec.leaky ?_)
  refine (addf_apply _ _ _).trans (congrArg₂ (· + ·) ?_ (bias_at128 x2 p q))
  exact PlainDot.matmul_zero_apply none _ _ p q

/-- Entry (p, q) of a dense layer's block (third dense layer). -/
theorem pay4_at (x0 : Vec Ideal S5000x128 .f32) (x1 : Vec Ideal S128x128 .f32) (x2 : Vec Ideal S1x128 .f32)
    (p : Fin 5000) (q : Fin 128) :
    k4_pay1 (F := Ideal) x0 x1 x2 (ix2 p q)
      = Cert.GinSpec.leaky ((∑ k : Fin 128, x0 (ix2 p k) * x1 (ix2 k q)) + x2 (ix2 0 q)) := by
  unfold k4_pay1
  simp only [shapeCast_self]
  refine (leaky_at _ _).trans (congrArg Cert.GinSpec.leaky ?_)
  refine (addf_apply _ _ _).trans (congrArg₂ (· + ·) ?_ (bias_at128 x2 p q))
  exact PlainDot.matmul_zero_apply none _ _ p q

/-- Entry (p, q) of a dense layer's block (fourth dense layer). -/
theorem pay5_at (x0 : Vec Ideal S5000x128 .f32) (x1 : Vec Ideal S128x128 .f32) (x2 : Vec Ideal S1x128 .f32)
    (p : Fin 5000) (q : Fin 128) :
    k5_pay1 (F := Ideal) x0 x1 x2 (ix2 p q)
      = Cert.GinSpec.leaky ((∑ k : Fin 128, x0 (ix2 p k) * x1 (ix2 k q)) + x2 (ix2 0 q)) := by
  unfold k5_pay1
  simp only [shapeCast_self]
  refine (leaky_at _ _).trans (congrArg Cert.GinSpec.leaky ?_)
  refine (addf_apply _ _ _).trans (congrArg₂ (· + ·) ?_ (bias_at128 x2 p q))
  exact PlainDot.matmul_zero_apply none _ _ p q

/-- Entry (p, q) of the last layer's block: no rectifier, 64 columns. -/
theorem pay6_at (x0 : Vec Ideal S5000x128 .f32) (x1 : Vec Ideal S128x64 .f32) (x2 : Vec Ideal S1x64 .f32)
    (p : Fin 5000) (q : Fin 64) :
    k6_pay1 (F := Ideal) x0 x1 x2 (ix2 p q)
      = (∑ k : Fin 128, x0 (ix2 p k) * x1 (ix2 k q)) + x2 (ix2 0 q) := by
  unfold k6_pay1
  simp only [shapeCast_self]
  refine (addf_apply _ _ _).trans (congrArg₂ (· + ·) ?_ (bias_at64 x2 p q))
  exact PlainDot.matmul_zero_apply none _ _ p q

end Cert.KernelIdeal.RegionValue

end
-- ==== Proof.KRegion0.lean ====
/-
  The first graph layer as one function of the whole arrays.

  The layer runs over ten blocks of 5000 rows.  At block t the body reads rows 5000 t .. 5000 t + 4999 of the
  feature matrix and of the neighbourhood sums, the whole weight matrix and the whole bias row, and writes
  rows 5000 t .. 5000 t + 4999 of the result.  Row r of the result is therefore written by block r / 5000,
  and every entry of it is the graph layer's value at that entry: the ten blocks are the restrictions of one
  function of the four arrays, and they cover the result.
-/
import proofs.«164340_j13975823581719_1_alg».proof.Proof.Gen.KernelIdeal.Frame
import proofs.«164340_j13975823581719_1_alg».proof.Proof.KPayload
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin0 : (![0, 0] : Fin 2 → Nat) = fun _ => 0 := funext fun a => by fin_cases a <;> rfl

/-- The block each window holds at point t: the row windows are at block t of the rows, the weight matrix and the
    bias row are whole. -/
theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row y of the feature window's block at point t is row 5000 t + y of the feature matrix. -/
theorem feat0 (c : Dev nD) (t : Fin cfg0.N) (y : S5000x128.Idx) (i : S50000x128.Idx)
    (h0 : (i 0).val = t.val * 5000 + (y 0).val) (h1 : (i 1).val = (y 1).val) :
    (iblk0 V c 0 t : Vec Ideal S5000x128 .f32) y = (V c main_arg0 : S50000x128.Idx → EReal) i := by
  obtain ⟨e0, e1, -⟩ := blockIdx0 t
  unfold iblk0
  rw [View.read_apply]
  show V c main_arg0 _ = V c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- Row y of the neighbourhood-sum window's block at point t is row 5000 t + y of that array. -/
theorem nbr0 (c : Dev nD) (t : Fin cfg0.N) (y : S5000x128.Idx) (i : S50000x128.Idx)
    (h0 : (i 0).val = t.val * 5000 + (y 0).val) (h1 : (i 1).val = (y 1).val) :
    (iblk0 V c 1 t : Vec Ideal S5000x128 .f32) y = (V c main_v9 : S50000x128.Idx → EReal) i := by
  obtain ⟨-, -, e0, e1, -⟩ := blockIdx0 t
  unfold iblk0
  rw [View.read_apply]
  show V c main_v9 _ = V c main_v9 _
  congr 1
  funext a
  apply Fin.ext
  match a with
  | ⟨0, _⟩ => show win0_1.index t 0 * 5000 + 1 * (y 0).val = (i 0).val; rw [e0, h0]; omega
  | ⟨1, _⟩ => show win0_1.index t 1 * 128 + 1 * (y 1).val = (i 1).val; rw [e1, h1]; omega

/-- The weight window's block is the weight matrix at every point. -/
theorem wgt0 (c : Dev nD) (t : Fin cfg0.N) (y : S128x128.Idx) :
    (iblk0 V c 2 t : Vec Ideal S128x128 .f32) y = (V c main_arg3 : S128x128.Idx → EReal) y := by
  obtain ⟨-, -, -, -, e0, e1, -⟩ := blockIdx0 t
  unfold iblk0
  rw [View.read_apply]
  show V c main_arg3 _ = V c main_arg3 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The bias window's block is the bias row at every point. -/
theorem bias0 (c : Dev nD) (t : Fin cfg0.N) (y : S1x128.Idx) :
    (iblk0 V c 3 t : Vec Ideal S1x128 .f32) y = (V c main_v10 : S1x128.Idx → EReal) y := by
  obtain ⟨-, -, -, -, -, -, e0, e1, -⟩ := blockIdx0 t
  unfold iblk0
  rw [View.read_apply]
  show V c main_v10 _ = V c main_v10 _
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

/-- What the layer computes from the four arrays it is given. -/
abbrev layer0 (c : Dev nD) : S50000x128.Idx → EReal :=
  Cert.GinSpec.resLayer (V c main_arg0) (V c main_v9) (V c main_arg3) (fun q => V c main_v10 (ix2 0 q))

/-- What point t writes back is block t of the layer's value. -/
theorem flushed0 (c : Dev nD) (t : Fin cfg0.N) :
    (dat0 (F := Ideal) V c).flushed 4 t = ((cfg0.win 4).blk t).view.read (Elt Ideal) (layer0 V c) := by
  show (cfg0.win 4).cut (grid0.coords t) ((dat0 V c).after 4 t) = _
  rw [after0_4]
  unfold out0_4
  rw [View.canon_unit_zero origin0]
  simp only [View.ld_unit_zero (S := S5000x128) origin0, View.ld_unit_zero (S := S128x128) origin0,
    View.ld_unit_zero (S := S1x128) origin0]
  obtain ⟨-, -, -, -, -, -, -, -, e0, e1⟩ := blockIdx0 t
  funext j
  show k0_pay1 (F := Ideal) (iblk0 V c 0 t) (iblk0 V c 1 t) (iblk0 V c 2 t) (iblk0 V c 3 t) j
    = layer0 V c (((cfg0.win 4).blk t).view.emb j)
  have hr : ((((cfg0.win 4).blk t).view.emb j) 0).val = t.val * 5000 + (j 0).val := by
    show win0_4.index t 0 * 5000 + 1 * (j 0).val = _; rw [e0]; omega
  have hc : ((((cfg0.win 4).blk t).view.emb j) 1).val = (j 1).val := by
    show win0_4.index t 1 * 128 + 1 * (j 1).val = _; rw [e1]; omega
  refine ((congrArg _ (eq_ix2 j)).trans (pay0_at _ _ _ _ (j 0) (j 1))).trans (congrArg Cert.GinSpec.leaky ?_)
  refine congrArg₂ (· + ·) (Finset.sum_congr rfl fun k _ => congrArg₂ (· * ·) (congrArg₂ (· + ·) ?_ ?_) ?_) ?_
  · exact feat0 V c t _ _ hr rfl
  · exact nbr0 V c t _ _ hr rfl
  · exact (wgt0 V c t _).trans (congrArg (V c main_arg3 : S128x128.Idx → EReal) (funext fun a => Fin.ext (by
      match a with
      | ⟨0, _⟩ => rfl
      | ⟨1, _⟩ => exact hc.symm)))
  · exact (bias0 V c t _).trans (congrArg (V c main_v10 : S1x128.Idx → EReal) (funext fun a => Fin.ext (by
      match a with
      | ⟨0, _⟩ => rfl
      | ⟨1, _⟩ => exact hc.symm)))

/-- An index of the result lies in point t's block exactly when each coordinate lies in the block's range. -/
theorem mem_block0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v11).slice (win0_4.rect t)).set ↔ _
  rw [View.set_slice_whole, Rect.mem_set_unit]
  exact Iff.rfl

/-- Row r of the result is in the block of point r / 5000, which is written back. -/
theorem covered0 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, -, e0, e1⟩ := blockIdx0 ⟨(i 0).val / 5000, ht⟩
  refine ⟨⟨(i 0).val / 5000, ht⟩, flush0_4 _, ?_⟩
  rw [mem_block0]
  intro a
  match a with
  | ⟨0, _⟩ =>
    show win0_4.index ⟨(i 0).val / 5000, ht⟩ 0 * 5000 ≤ (i 0).val
      ∧ (i 0).val < win0_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win0_4.index ⟨(i 0).val / 5000, ht⟩ 1 * 128 ≤ (i 1).val
      ∧ (i 1).val < win0_4.index ⟨(i 0).val / 5000, ht⟩ 1 * 128 + 128
    rw [e1]; omega

/-- The first graph layer's result array after its ten blocks: the graph layer of the four arrays it was given. -/
theorem out0 (c : Dev nD) :
    (Gen.dat0 (F := Ideal) V c).arrAt 4 cfg0.N
      = Cert.GinSpec.resLayer (V c main_arg0) (V c main_v9) (V c main_arg3) (fun q => V c main_v10 (ix2 0 q)) :=
  (dat0 (F := Ideal) V c).arrAt_eq_of_cover 4 (layer0 V c) (fun t _ => flushed0 V c t) covered0

end Cert.KernelIdeal.RegionValue

end
-- ==== Proof.KRegion1.lean ====
/-
  The second graph layer as one function of the whole arrays.

  Ten blocks of 5000 rows.  At block t the body reads rows 5000 t .. 5000 t + 4999 of the layer's input and of
  its neighbourhood sums, the whole weight matrix and the whole bias row, and writes the same rows of the
  result; row r of the result is written by block r / 5000.  Every entry written is the graph layer's value
  at that entry, so the ten blocks are the restrictions of one function of the four arrays and cover the result.
-/
import proofs.«164340_j13975823581719_1_alg».proof.Proof.Gen.KernelIdeal.Frame
import proofs.«164340_j13975823581719_1_alg».proof.Proof.KPayload
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin1 : (![0, 0] : Fin 2 → Nat) = fun _ => 0 := funext fun a => by fin_cases a <;> rfl

/-- The block each window holds at point t: the row windows are at block t of the rows, the weight matrix and the
    bias row are whole. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row y of the input window's block at point t is row 5000 t + y of the layer's input. -/
theorem feat1 (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_v11 : S50000x128.Idx → EReal) i := by
  obtain ⟨e0, e1, -⟩ := blockIdx1 t
  unfold iblk1
  rw [View.read_apply]
  show V c main_v11 _ = V c main_v11 _
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Row y of the neighbourhood-sum window's block at point t is row 5000 t + y of that array. -/
theorem nbr1 (c : Dev nD) (t : Fin cfg1.N) (y : S5000x128.Idx) (i : S50000x128.Idx)
    (h0 : (i 0).val = t.val * 5000 + (y 0).val) (h1 : (i 1).val = (y 1).val) :
    (iblk1 V c 1 t : Vec Ideal S5000x128 .f32) y = (V c main_v21 : S50000x128.Idx → EReal) i := by
  obtain ⟨-, -, e0, e1, -⟩ := blockIdx1 t
  unfold iblk1
  rw [View.read_apply]
  show V c main_v21 _ = V c main_v21 _
  congr 1
  funext a
  apply Fin.ext
  match a with
  | ⟨0, _⟩ => show win1_1.index t 0 * 5000 + 1 * (y 0).val = (i 0).val; rw [e0, h0]; omega
  | ⟨1, _⟩ => show win1_1.index t 1 * 128 + 1 * (y 1).val = (i 1).val; rw [e1, h1]; omega

/-- The weight window's block is the weight matrix at every point. -/
theorem wgt1 (c : Dev nD) (t : Fin cfg1.N) (y : S128x128.Idx) :
    (iblk1 V c 2 t : Vec Ideal S128x128 .f32) y = (V c main_arg5 : S128x128.Idx → EReal) y := by
  obtain ⟨-, -, -, -, e0, e1, -⟩ := blockIdx1 t
  unfold iblk1
  rw [View.read_apply]
  show V c main_arg5 _ = V c main_arg5 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias window's block is the bias row at every point. -/
theorem bias1 (c : Dev nD) (t : Fin cfg1.N) (y : S1x128.Idx) :
    (iblk1 V c 3 t : Vec Ideal S1x128 .f32) y = (V c main_v22 : S1x128.Idx → EReal) y := by
  obtain ⟨-, -, -, -, -, -, e0, e1, -⟩ := blockIdx1 t
  unfold iblk1
  rw [View.read_apply]
  show V c main_v22 _ = V c main_v22 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- What the layer computes from the arrays it is given. -/
abbrev layer1 (c : Dev nD) : S50000x128.Idx → EReal :=
  Cert.GinSpec.resLayer (V c main_v11) (V c main_v21) (V c main_arg5) (fun q => V c main_v22 (ix2 0 q))

/-- What point t writes back is block t of the layer's value. -/
theorem flushed1 (c : Dev nD) (t : Fin cfg1.N) :
    (dat1 (F := Ideal) V c).flushed 4 t = ((cfg1.win 4).blk t).view.read (Elt Ideal) (layer1 V c) := by
  show (cfg1.win 4).cut (grid1.coords t) ((dat1 V c).after 4 t) = _
  rw [after1_4]
  unfold out1_4
  rw [View.canon_unit_zero origin1]
  simp only [View.ld_unit_zero (S := S5000x128) origin1, View.ld_unit_zero (S := S128x128) origin1,
    View.ld_unit_zero (S := S1x128) origin1]
  obtain ⟨-, -, -, -, -, -, -, -, e0, e1⟩ := blockIdx1 t
  funext j
  show k1_pay1 (F := Ideal) (iblk1 V c 0 t) (iblk1 V c 1 t) (iblk1 V c 2 t) (iblk1 V c 3 t) j
    = layer1 V c (((cfg1.win 4).blk t).view.emb j)
  have hr : ((((cfg1.win 4).blk t).view.emb j) 0).val = t.val * 5000 + (j 0).val := by
    show win1_4.index t 0 * 5000 + 1 * (j 0).val = _; rw [e0]; omega
  have hc : ((((cfg1.win 4).blk t).view.emb j) 1).val = (j 1).val := by
    show win1_4.index t 1 * 128 + 1 * (j 1).val = _; rw [e1]; omega
  refine ((congrArg _ (eq_ix2 j)).trans (pay1_at _ _ _ _ (j 0) (j 1))).trans (congrArg Cert.GinSpec.leaky ?_)
  refine congrArg₂ (· + ·) (Finset.sum_congr rfl fun k _ => congrArg₂ (· * ·) (congrArg₂ (· + ·) ?_ ?_) ?_) ?_
  · exact feat1 V c t _ _ hr rfl
  · exact nbr1 V c t _ _ hr rfl
  · exact (wgt1 V c t _).trans (congrArg (V c main_arg5 : S128x128.Idx → EReal) (funext fun a => Fin.ext (by
      match a with
      | ⟨0, _⟩ => rfl
      | ⟨1, _⟩ => exact hc.symm)))
  · exact (bias1 V c t _).trans (congrArg (V c main_v22 : S1x128.Idx → EReal) (funext fun a => Fin.ext (by
      match a with
      | ⟨0, _⟩ => rfl
      | ⟨1, _⟩ => exact hc.symm)))

/-- An index of the result lies in point t's block exactly when each coordinate lies in the block's range. -/
theorem mem_block1 (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v23).slice (win1_4.rect t)).set ↔ _
  rw [View.set_slice_whole, Rect.mem_set_unit]
  exact Iff.rfl

/-- Row r of the result is in the block of point r / 5000, which is written back. -/
theorem covered1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, -, -, e0, e1⟩ := blockIdx1 ⟨(i 0).val / 5000, ht⟩
  refine ⟨⟨(i 0).val / 5000, ht⟩, flush1_4 _, ?_⟩
  rw [mem_block1]
  intro a
  match a with
  | ⟨0, _⟩ =>
    show win1_4.index ⟨(i 0).val / 5000, ht⟩ 0 * 5000 ≤ (i 0).val
      ∧ (i 0).val < win1_4.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win1_4.index ⟨(i 0).val / 5000, ht⟩ 1 * 128 ≤ (i 1).val
      ∧ (i 1).val < win1_4.index ⟨(i 0).val / 5000, ht⟩ 1 * 128 + 128
    rw [e1]; omega

/-- The second graph layer's result array after its ten blocks: the graph layer of the arrays it was given. -/
theorem out1 (c : Dev nD) :
    (Gen.dat1 (F := Ideal) V c).arrAt 4 cfg1.N
      = Cert.GinSpec.resLayer (V c main_v11) (V c main_v21) (V c main_arg5) (fun q => V c main_v22 (ix2 0 q)) :=
  (dat1 (F := Ideal) V c).arrAt_eq_of_cover 4 (layer1 V c) (fun t _ => flushed1 V c t) covered1

end Cert.KernelIdeal.RegionValue

end
-- ==== Proof.KRegion2.lean ====
/-
  The first dense layer as one function of the whole arrays.

  Ten blocks of 5000 rows.  At block t the body reads rows 5000 t .. 5000 t + 4999 of the layer's input, the
  whole weight matrix and the whole bias row, and writes the same rows of the result; row r of the result is
  written by block r / 5000.  Every entry written is the dense layer with its rectifier's value at that entry, so the
  ten blocks are the restrictions of one function of the three arrays and cover the result.
-/
import proofs.«164340_j13975823581719_1_alg».proof.Proof.Gen.KernelIdeal.Frame
import proofs.«164340_j13975823581719_1_alg».proof.Proof.KPayload
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin2 : (![0, 0] : Fin 2 → Nat) = fun _ => 0 := funext fun a => by fin_cases a <;> rfl

/-- The block each window holds at point t: the row windows are at block t of the rows, the weight matrix and the
    bias row are whole. -/
theorem blockIdx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row y of the input window's block at point t is row 5000 t + y of the layer's input. -/
theorem feat2 (c : Dev nD) (t : Fin cfg2.N) (y : S5000x128.Idx) (i : S50000x128.Idx)
    (h0 : (i 0).val = t.val * 5000 + (y 0).val) (h1 : (i 1).val = (y 1).val) :
    (iblk2 V c 0 t : Vec Ideal S5000x128 .f32) y = (V c main_v23 : S50000x128.Idx → EReal) i := by
  obtain ⟨e0, e1, -⟩ := blockIdx2 t
  unfold iblk2
  rw [View.read_apply]
  show V c main_v23 _ = V c main_v23 _
  congr 1
  funext a
  apply Fin.ext
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The weight window's block is the weight matrix at every point. -/
theorem wgt2 (c : Dev nD) (t : Fin cfg2.N) (y : S128x128.Idx) :
    (iblk2 V c 1 t : Vec Ideal S128x128 .f32) y = (V c main_arg7 : S128x128.Idx → EReal) y := by
  obtain ⟨-, -, e0, e1, -⟩ := blockIdx2 t
  unfold iblk2
  rw [View.read_apply]
  show V c main_arg7 _ = V c main_arg7 _
  congr 1
  funext a
  apply Fin.ext
  match a with
  | ⟨0, _⟩ => show win2_1.index t 0 * 128 + 1 * (y 0).val = (y 0).val; rw [e0]; omega
  | ⟨1, _⟩ => show win2_1.index t 1 * 128 + 1 * (y 1).val = (y 1).val; rw [e1]; omega

/-- The bias window's block is the bias row at every point. -/
theorem bias2 (c : Dev nD) (t : Fin cfg2.N) (y : S1x128.Idx) :
    (iblk2 V c 2 t : Vec Ideal S1x128 .f32) y = (V c main_v24 : S1x128.Idx → EReal) y := by
  obtain ⟨-, -, -, -, e0, e1, -⟩ := blockIdx2 t
  unfold iblk2
  rw [View.read_apply]
  show V c main_v24 _ = V c main_v24 _
  congr 1
  funext a
  apply Fin.ext
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- What the layer computes from the arrays it is given. -/
abbrev layer2 (c : Dev nD) : S50000x128.Idx → EReal :=
  Cert.GinSpec.linLayer (V c main_v23) (V c main_arg7) (fun q => V c main_v24 (ix2 0 q))

/-- What point t writes back is block t of the layer's value. -/
theorem flushed2 (c : Dev nD) (t : Fin cfg2.N) :
    (dat2 (F := Ideal) V c).flushed 3 t = ((cfg2.win 3).blk t).view.read (Elt Ideal) (layer2 V c) := by
  show (cfg2.win 3).cut (grid2.coords t) ((dat2 V c).after 3 t) = _
  rw [after2_3]
  unfold out2_3
  rw [View.canon_unit_zero origin2]
  simp only [View.ld_unit_zero (S := S5000x128) origin2, View.ld_unit_zero (S := S128x128) origin2,
    View.ld_unit_zero (S := S1x128) origin2]
  obtain ⟨-, -, -, -, -, -, e0, e1⟩ := blockIdx2 t
  funext j
  show k2_pay1 (F := Ideal) (iblk2 V c 0 t) (iblk2 V c 1 t) (iblk2 V c 2 t) j
    = layer2 V c (((cfg2.win 3).blk t).view.emb j)
  have hr : ((((cfg2.win 3).blk t).view.emb j) 0).val = t.val * 5000 + (j 0).val := by
    show win2_3.index t 0 * 5000 + 1 * (j 0).val = _; rw [e0]; omega
  have hc : ((((cfg2.win 3).blk t).view.emb j) 1).val = (j 1).val := by
    show win2_3.index t 1 * 128 + 1 * (j 1).val = _; rw [e1]; omega
  refine ((congrArg _ (eq_ix2 j)).trans (pay2_at _ _ _ (j 0) (j 1))).trans (congrArg Cert.GinSpec.leaky ?_)
  refine congrArg₂ (· + ·) (Finset.sum_congr rfl fun k _ => congrArg₂ (· * ·) ?_ ?_) ?_
  · exact feat2 V c t _ _ hr rfl
  · exact (wgt2 V c t _).trans (congrArg (V c main_arg7 : S128x128.Idx → EReal) (funext fun a => Fin.ext (by
      match a with
      | ⟨0, _⟩ => rfl
      | ⟨1, _⟩ => exact hc.symm)))
  · exact (bias2 V c t _).trans (congrArg (V c main_v24 : S1x128.Idx → EReal) (funext fun a => Fin.ext (by
      match a with
      | ⟨0, _⟩ => rfl
      | ⟨1, _⟩ => exact hc.symm)))

/-- An index of the result lies in point t's block exactly when each coordinate lies in the block's range. -/
theorem mem_block2 (t : Fin cfg2.N) (i : S50000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v25).slice (win2_3.rect t)).set ↔ _
  rw [View.set_slice_whole, Rect.mem_set_unit]
  exact Iff.rfl

/-- Row r of the result is in the block of point r / 5000, which is written back. -/
theorem covered2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  have ht : (i 0).val / 5000 < cfg2.N := by rw [hN]; omega
  obtain ⟨-, -, -, -, -, -, e0, e1⟩ := blockIdx2 ⟨(i 0).val / 5000, ht⟩
  refine ⟨⟨(i 0).val / 5000, ht⟩, flush2_3 _, ?_⟩
  rw [mem_block2]
  intro a
  match a with
  | ⟨0, _⟩ =>
    show win2_3.index ⟨(i 0).val / 5000, ht⟩ 0 * 5000 ≤ (i 0).val
      ∧ (i 0).val < win2_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win2_3.index ⟨(i 0).val / 5000, ht⟩ 1 * 128 ≤ (i 1).val
      ∧ (i 1).val < win2_3.index ⟨(i 0).val / 5000, ht⟩ 1 * 128 + 128
    rw [e1]; omega

/-- The first dense layer's result array after its ten blocks: the dense layer with its rectifier of the arrays it was given. -/
theorem out2 (c : Dev nD) :
    (Gen.dat2 (F := Ideal) V c).arrAt 3 cfg2.N
      = Cert.GinSpec.linLayer (V c main_v23) (V c main_arg7) (fun q => V c main_v24 (ix2 0 q)) :=
  (dat2 (F := Ideal) V c).arrAt_eq_of_cover 3 (layer2 V c) (fun t _ => flushed2 V c t) covered2

end Cert.KernelIdeal.RegionValue

end
-- ==== Proof.KRegion3.lean ====
/-
  The second dense layer as one function of the whole arrays.

  Ten blocks of 5000 rows.  At block t the body reads rows 5000 t .. 5000 t + 4999 of the layer's input, the
  whole weight matrix and the whole bias row, and writes the same rows of the result; row r of the result is
  written by block r / 5000.  Every entry written is the dense layer with its rectifier's value at that entry, so the
  ten blocks are the restrictions of one function of the three arrays and cover the result.
-/
import proofs.«164340_j13975823581719_1_alg».proof.Proof.Gen.KernelIdeal.Frame
import proofs.«164340_j13975823581719_1_alg».proof.Proof.KPayload
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin3 : (![0, 0] : Fin 2 → Nat) = fun _ => 0 := funext fun a => by fin_cases a <;> rfl

/-- The block each window holds at point t: the row windows are at block t of the rows, the weight matrix and the
    bias row are whole. -/
theorem blockIdx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row y of the input window's block at point t is row 5000 t + y of the layer's input. -/
theorem feat3 (c : Dev nD) (t : Fin cfg3.N) (y : S5000x128.Idx) (i : S50000x128.Idx)
    (h0 : (i 0).val = t.val * 5000 + (y 0).val) (h1 : (i 1).val = (y 1).val) :
    (iblk3 V c 0 t : Vec Ideal S5000x128 .f32) y = (V c main_v25 : S50000x128.Idx → EReal) i := by
  obtain ⟨e0, e1, -⟩ := blockIdx3 t
  unfold iblk3
  rw [View.read_apply]
  show V c main_v25 _ = V c main_v25 _
  congr 1
  funext a
  apply Fin.ext
  match a with
  | ⟨0, _⟩ => show win3_0.index t 0 * 5000 + 1 * (y 0).val = (i 0).val; rw [e0, h0]; omega
  | ⟨1, _⟩ => show win3_0.index t 1 * 128 + 1 * (y 1).val = (i 1).val; rw [e1, h1]; omega

/-- The weight window's block is the weight matrix at every point. -/
theorem wgt3 (c : Dev nD) (t : Fin cfg3.N) (y : S128x128.Idx) :
    (iblk3 V c 1 t : Vec Ideal S128x128 .f32) y = (V c main_arg9 : S128x128.Idx → EReal) y := by
  obtain ⟨-, -, e0, e1, -⟩ := blockIdx3 t
  unfold iblk3
  rw [View.read_apply]
  show V c main_arg9 _ = V c main_arg9 _
  congr 1
  funext a
  apply Fin.ext
  match a with
  | ⟨0, _⟩ => show win3_1.index t 0 * 128 + 1 * (y 0).val = (y 0).val; rw [e0]; omega
  | ⟨1, _⟩ => show win3_1.index t 1 * 128 + 1 * (y 1).val = (y 1).val; rw [e1]; omega

/-- The bias window's block is the bias row at every point. -/
theorem bias3 (c : Dev nD) (t : Fin cfg3.N) (y : S1x128.Idx) :
    (iblk3 V c 2 t : Vec Ideal S1x128 .f32) y = (V c main_v26 : S1x128.Idx → EReal) y := by
  obtain ⟨-, -, -, -, e0, e1, -⟩ := blockIdx3 t
  unfold iblk3
  rw [View.read_apply]
  show V c main_v26 _ = V c main_v26 _
  congr 1
  funext a
  apply Fin.ext
  match a with
  | ⟨0, _⟩ => show win3_2.index t 0 * 1 + 1 * (y 0).val = (y 0).val; rw [e0]; omega
  | ⟨1, _⟩ => show win3_2.index t 1 * 128 + 1 * (y 1).val = (y 1).val; rw [e1]; omega

/-- What the layer computes from the arrays it is given. -/
abbrev layer3 (c : Dev nD) : S50000x128.Idx → EReal :=
  Cert.GinSpec.linLayer (V c main_v25) (V c main_arg9) (fun q => V c main_v26 (ix2 0 q))

/-- What point t writes back is block t of the layer's value. -/
theorem flushed3 (c : Dev nD) (t : Fin cfg3.N) :
    (dat3 (F := Ideal) V c).flushed 3 t = ((cfg3.win 3).blk t).view.read (Elt Ideal) (layer3 V c) := by
  show (cfg3.win 3).cut (grid3.coords t) ((dat3 V c).after 3 t) = _
  rw [after3_3]
  unfold out3_3
  rw [View.canon_unit_zero origin3]
  simp only [View.ld_unit_zero (S := S5000x128) origin3, View.ld_unit_zero (S := S128x128) origin3,
    View.ld_unit_zero (S := S1x128) origin3]
  obtain ⟨-, -, -, -, -, -, e0, e1⟩ := blockIdx3 t
  funext j
  show k3_pay1 (F := Ideal) (iblk3 V c 0 t) (iblk3 V c 1 t) (iblk3 V c 2 t) j
    = layer3 V c (((cfg3.win 3).blk t).view.emb j)
  have hr : ((((cfg3.win 3).blk t).view.emb j) 0).val = t.val * 5000 + (j 0).val := by
    show win3_3.index t 0 * 5000 + 1 * (j 0).val = _; rw [e0]; omega
  have hc : ((((cfg3.win 3).blk t).view.emb j) 1).val = (j 1).val := by
    show win3_3.index t 1 * 128 + 1 * (j 1).val = _; rw [e1]; omega
  refine ((congrArg _ (eq_ix2 j)).trans (pay3_at _ _ _ (j 0) (j 1))).trans (congrArg Cert.GinSpec.leaky ?_)
  refine congrArg₂ (· + ·) (Finset.sum_congr rfl fun k _ => congrArg₂ (· * ·) ?_ ?_) ?_
  · exact feat3 V c t _ _ hr rfl
  · exact (wgt3 V c t _).trans (congrArg (V c main_arg9 : S128x128.Idx → EReal) (funext fun a => Fin.ext (by
      match a with
      | ⟨0, _⟩ => rfl
      | ⟨1, _⟩ => exact hc.symm)))
  · exact (bias3 V c t _).trans (congrArg (V c main_v26 : S1x128.Idx → EReal) (funext fun a => Fin.ext (by
      match a with
      | ⟨0, _⟩ => rfl
      | ⟨1, _⟩ => exact hc.symm)))

/-- An index of the result lies in point t's block exactly when each coordinate lies in the block's range. -/
theorem mem_block3 (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v27).slice (win3_3.rect t)).set ↔ _
  rw [View.set_slice_whole, Rect.mem_set_unit]
  exact Iff.rfl

/-- Row r of the result is in the block of point r / 5000, which is written back. -/
theorem covered3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  have ht : (i 0).val / 5000 < cfg3.N := by rw [hN]; omega
  obtain ⟨-, -, -, -, -, -, e0, e1⟩ := blockIdx3 ⟨(i 0).val / 5000, ht⟩
  refine ⟨⟨(i 0).val / 5000, ht⟩, flush3_3 _, ?_⟩
  rw [mem_block3]
  intro a
  match a with
  | ⟨0, _⟩ =>
    show win3_3.index ⟨(i 0).val / 5000, ht⟩ 0 * 5000 ≤ (i 0).val
      ∧ (i 0).val < win3_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win3_3.index ⟨(i 0).val / 5000, ht⟩ 1 * 128 ≤ (i 1).val
      ∧ (i 1).val < win3_3.index ⟨(i 0).val / 5000, ht⟩ 1 * 128 + 128
    rw [e1]; omega

/-- The second dense layer's result array after its ten blocks: the dense layer with its rectifier of the arrays it was given. -/
theorem out3 (c : Dev nD) :
    (Gen.dat3 (F := Ideal) V c).arrAt 3 cfg3.N
      = Cert.GinSpec.linLayer (V c main_v25) (V c main_arg9) (fun q => V c main_v26 (ix2 0 q)) :=
  (dat3 (F := Ideal) V c).arrAt_eq_of_cover 3 (layer3 V c) (fun t _ => flushed3 V c t) covered3

end Cert.KernelIdeal.RegionValue

end
-- ==== Proof.KRegion4.lean ====
/-
  The third dense layer as one function of the whole arrays.

  Ten blocks of 5000 rows.  At block t the body reads rows 5000 t .. 5000 t + 4999 of the layer's input, the
  whole weight matrix and the whole bias row, and writes the same rows of the result; row r of the result is
  written by block r / 5000.  Every entry written is the dense layer with its rectifier's value at that entry, so the
  ten blocks are the restrictions of one function of the three arrays and cover the result.
-/
import proofs.«164340_j13975823581719_1_alg».proof.Proof.Gen.KernelIdeal.Frame
import proofs.«164340_j13975823581719_1_alg».proof.Proof.KPayload
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin4 : (![0, 0] : Fin 2 → Nat) = fun _ => 0 := funext fun a => by fin_cases a <;> rfl

/-- The block each window holds at point t: the row windows are at block t of the rows, the weight matrix and the
    bias row are whole. -/
theorem blockIdx4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row y of the input window's block at point t is row 5000 t + y of the layer's input. -/
theorem feat4 (c : Dev nD) (t : Fin cfg4.N) (y : S5000x128.Idx) (i : S50000x128.Idx)
    (h0 : (i 0).val = t.val * 5000 + (y 0).val) (h1 : (i 1).val = (y 1).val) :
    (iblk4 V c 0 t : Vec Ideal S5000x128 .f32) y = (V c main_v27 : S50000x128.Idx → EReal) i := by
  obtain ⟨e0, e1, -⟩ := blockIdx4 t
  unfold iblk4
  rw [View.read_apply]
  show V c main_v27 _ = V c main_v27 _
  congr 1
  funext a
  apply Fin.ext
  match a with
  | ⟨0, _⟩ => show win4_0.index t 0 * 5000 + 1 * (y 0).val = (i 0).val; rw [e0, h0]; omega
  | ⟨1, _⟩ => show win4_0.index t 1 * 128 + 1 * (y 1).val = (i 1).val; rw [e1, h1]; omega

/-- The weight window's block is the weight matrix at every point. -/
theorem wgt4 (c : Dev nD) (t : Fin cfg4.N) (y : S128x128.Idx) :
    (iblk4 V c 1 t : Vec Ideal S128x128 .f32) y = (V c main_arg11 : S128x128.Idx → EReal) y := by
  obtain ⟨-, -, e0, e1, -⟩ := blockIdx4 t
  unfold iblk4
  rw [View.read_apply]
  show V c main_arg11 _ = V c main_arg11 _
  congr 1
  funext a
  apply Fin.ext
  match a with
  | ⟨0, _⟩ => show win4_1.index t 0 * 128 + 1 * (y 0).val = (y 0).val; rw [e0]; omega
  | ⟨1, _⟩ => show win4_1.index t 1 * 128 + 1 * (y 1).val = (y 1).val; rw [e1]; omega

/-- The bias window's block is the bias row at every point. -/
theorem bias4 (c : Dev nD) (t : Fin cfg4.N) (y : S1x128.Idx) :
    (iblk4 V c 2 t : Vec Ideal S1x128 .f32) y = (V c main_v28 : S1x128.Idx → EReal) y := by
  obtain ⟨-, -, -, -, e0, e1, -⟩ := blockIdx4 t
  unfold iblk4
  rw [View.read_apply]
  show V c main_v28 _ = V c main_v28 _
  congr 1
  funext a
  apply Fin.ext
  match a with
  | ⟨0, _⟩ => show win4_2.index t 0 * 1 + 1 * (y 0).val = (y 0).val; rw [e0]; omega
  | ⟨1, _⟩ => show win4_2.index t 1 * 128 + 1 * (y 1).val = (y 1).val; rw [e1]; omega

/-- What the layer computes from the arrays it is given. -/
abbrev layer4 (c : Dev nD) : S50000x128.Idx → EReal :=
  Cert.GinSpec.linLayer (V c main_v27) (V c main_arg11) (fun q => V c main_v28 (ix2 0 q))

/-- What point t writes back is block t of the layer's value. -/
theorem flushed4 (c : Dev nD) (t : Fin cfg4.N) :
    (dat4 (F := Ideal) V c).flushed 3 t = ((cfg4.win 3).blk t).view.read (Elt Ideal) (layer4 V c) := by
  show (cfg4.win 3).cut (grid4.coords t) ((dat4 V c).after 3 t) = _
  rw [after4_3]
  unfold out4_3
  rw [View.canon_unit_zero origin4]
  simp only [View.ld_unit_zero (S := S5000x128) origin4, View.ld_unit_zero (S := S128x128) origin4,
    View.ld_unit_zero (S := S1x128) origin4]
  obtain ⟨-, -, -, -, -, -, e0, e1⟩ := blockIdx4 t
  funext j
  show k4_pay1 (F := Ideal) (iblk4 V c 0 t) (iblk4 V c 1 t) (iblk4 V c 2 t) j
    = layer4 V c (((cfg4.win 3).blk t).view.emb j)
  have hr : ((((cfg4.win 3).blk t).view.emb j) 0).val = t.val * 5000 + (j 0).val := by
    show win4_3.index t 0 * 5000 + 1 * (j 0).val = _; rw [e0]; omega
  have hc : ((((cfg4.win 3).blk t).view.emb j) 1).val = (j 1).val := by
    show win4_3.index t 1 * 128 + 1 * (j 1).val = _; rw [e1]; omega
  refine ((congrArg _ (eq_ix2 j)).trans (pay4_at _ _ _ (j 0) (j 1))).trans (congrArg Cert.GinSpec.leaky ?_)
  refine congrArg₂ (· + ·) (Finset.sum_congr rfl fun k _ => congrArg₂ (· * ·) ?_ ?_) ?_
  · exact feat4 V c t _ _ hr rfl
  · exact (wgt4 V c t _).trans (congrArg (V c main_arg11 : S128x128.Idx → EReal) (funext fun a => Fin.ext (by
      match a with
      | ⟨0, _⟩ => rfl
      | ⟨1, _⟩ => exact hc.symm)))
  · exact (bias4 V c t _).trans (congrArg (V c main_v28 : S1x128.Idx → EReal) (funext fun a => Fin.ext (by
      match a with
      | ⟨0, _⟩ => rfl
      | ⟨1, _⟩ => exact hc.symm)))

/-- An index of the result lies in point t's block exactly when each coordinate lies in the block's range. -/
theorem mem_block4 (t : Fin cfg4.N) (i : S50000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v29).slice (win4_3.rect t)).set ↔ _
  rw [View.set_slice_whole, Rect.mem_set_unit]
  exact Iff.rfl

/-- Row r of the result is in the block of point r / 5000, which is written back. -/
theorem covered4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  have ht : (i 0).val / 5000 < cfg4.N := by rw [hN]; omega
  obtain ⟨-, -, -, -, -, -, e0, e1⟩ := blockIdx4 ⟨(i 0).val / 5000, ht⟩
  refine ⟨⟨(i 0).val / 5000, ht⟩, flush4_3 _, ?_⟩
  rw [mem_block4]
  intro a
  match a with
  | ⟨0, _⟩ =>
    show win4_3.index ⟨(i 0).val / 5000, ht⟩ 0 * 5000 ≤ (i 0).val
      ∧ (i 0).val < win4_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win4_3.index ⟨(i 0).val / 5000, ht⟩ 1 * 128 ≤ (i 1).val
      ∧ (i 1).val < win4_3.index ⟨(i 0).val / 5000, ht⟩ 1 * 128 + 128
    rw [e1]; omega

/-- The third dense layer's result array after its ten blocks: the dense layer with its rectifier of the arrays it was given. -/
theorem out4 (c : Dev nD) :
    (Gen.dat4 (F := Ideal) V c).arrAt 3 cfg4.N
      = Cert.GinSpec.linLayer (V c main_v27) (V c main_arg11) (fun q => V c main_v28 (ix2 0 q)) :=
  (dat4 (F := Ideal) V c).arrAt_eq_of_cover 3 (layer4 V c) (fun t _ => flushed4 V c t) covered4

end Cert.KernelIdeal.RegionValue

end
-- ==== Proof.KRegion5.lean ====
/-
  The fourth dense layer as one function of the whole arrays.

  Ten blocks of 5000 rows.  At block t the body reads rows 5000 t .. 5000 t + 4999 of the layer's input, the
  whole weight matrix and the whole bias row, and writes the same rows of the result; row r of the result is
  written by block r / 5000.  Every entry written is the dense layer with its rectifier's value at that entry, so the
  ten blocks are the restrictions of one function of the three arrays and cover the result.
-/
import proofs.«164340_j13975823581719_1_alg».proof.Proof.Gen.KernelIdeal.Frame
import proofs.«164340_j13975823581719_1_alg».proof.Proof.KPayload
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin5 : (![0, 0] : Fin 2 → Nat) = fun _ => 0 := funext fun a => by fin_cases a <;> rfl

/-- The block each window holds at point t: the row windows are at block t of the rows, the weight matrix and the
    bias row are whole. -/
theorem blockIdx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row y of the input window's block at point t is row 5000 t + y of the layer's input. -/
theorem feat5 (c : Dev nD) (t : Fin cfg5.N) (y : S5000x128.Idx) (i : S50000x128.Idx)
    (h0 : (i 0).val = t.val * 5000 + (y 0).val) (h1 : (i 1).val = (y 1).val) :
    (iblk5 V c 0 t : Vec Ideal S5000x128 .f32) y = (V c main_v29 : S50000x128.Idx → EReal) i := by
  obtain ⟨e0, e1, -⟩ := blockIdx5 t
  unfold iblk5
  rw [View.read_apply]
  show V c main_v29 _ = V c main_v29 _
  congr 1
  funext a
  apply Fin.ext
  match a with
  | ⟨0, _⟩ => show win5_0.index t 0 * 5000 + 1 * (y 0).val = (i 0).val; rw [e0, h0]; omega
  | ⟨1, _⟩ => show win5_0.index t 1 * 128 + 1 * (y 1).val = (i 1).val; rw [e1, h1]; omega

/-- The weight window's block is the weight matrix at every point. -/
theorem wgt5 (c : Dev nD) (t : Fin cfg5.N) (y : S128x128.Idx) :
    (iblk5 V c 1 t : Vec Ideal S128x128 .f32) y = (V c main_arg13 : S128x128.Idx → EReal) y := by
  obtain ⟨-, -, e0, e1, -⟩ := blockIdx5 t
  unfold iblk5
  rw [View.read_apply]
  show V c main_arg13 _ = V c main_arg13 _
  congr 1
  funext a
  apply Fin.ext
  match a with
  | ⟨0, _⟩ => show win5_1.index t 0 * 128 + 1 * (y 0).val = (y 0).val; rw [e0]; omega
  | ⟨1, _⟩ => show win5_1.index t 1 * 128 + 1 * (y 1).val = (y 1).val; rw [e1]; omega

/-- The bias window's block is the bias row at every point. -/
theorem bias5 (c : Dev nD) (t : Fin cfg5.N) (y : S1x128.Idx) :
    (iblk5 V c 2 t : Vec Ideal S1x128 .f32) y = (V c main_v30 : S1x128.Idx → EReal) y := by
  obtain ⟨-, -, -, -, e0, e1, -⟩ := blockIdx5 t
  unfold iblk5
  rw [View.read_apply]
  show V c main_v30 _ = V c main_v30 _
  congr 1
  funext a
  apply Fin.ext
  match a with
  | ⟨0, _⟩ => show win5_2.index t 0 * 1 + 1 * (y 0).val = (y 0).val; rw [e0]; omega
  | ⟨1, _⟩ => show win5_2.index t 1 * 128 + 1 * (y 1).val = (y 1).val; rw [e1]; omega

/-- What the layer computes from the arrays it is given. -/
abbrev layer5 (c : Dev nD) : S50000x128.Idx → EReal :=
  Cert.GinSpec.linLayer (V c main_v29) (V c main_arg13) (fun q => V c main_v30 (ix2 0 q))

/-- What point t writes back is block t of the layer's value. -/
theorem flushed5 (c : Dev nD) (t : Fin cfg5.N) :
    (dat5 (F := Ideal) V c).flushed 3 t = ((cfg5.win 3).blk t).view.read (Elt Ideal) (layer5 V c) := by
  show (cfg5.win 3).cut (grid5.coords t) ((dat5 V c).after 3 t) = _
  rw [after5_3]
  unfold out5_3
  rw [View.canon_unit_zero origin5]
  simp only [View.ld_unit_zero (S := S5000x128) origin5, View.ld_unit_zero (S := S128x128) origin5,
    View.ld_unit_zero (S := S1x128) origin5]
  obtain ⟨-, -, -, -, -, -, e0, e1⟩ := blockIdx5 t
  funext j
  show k5_pay1 (F := Ideal) (iblk5 V c 0 t) (iblk5 V c 1 t) (iblk5 V c 2 t) j
    = layer5 V c (((cfg5.win 3).blk t).view.emb j)
  have hr : ((((cfg5.win 3).blk t).view.emb j) 0).val = t.val * 5000 + (j 0).val := by
    show win5_3.index t 0 * 5000 + 1 * (j 0).val = _; rw [e0]; omega
  have hc : ((((cfg5.win 3).blk t).view.emb j) 1).val = (j 1).val := by
    show win5_3.index t 1 * 128 + 1 * (j 1).val = _; rw [e1]; omega
  refine ((congrArg _ (eq_ix2 j)).trans (pay5_at _ _ _ (j 0) (j 1))).trans (congrArg Cert.GinSpec.leaky ?_)
  refine congrArg₂ (· + ·) (Finset.sum_congr rfl fun k _ => congrArg₂ (· * ·) ?_ ?_) ?_
  · exact feat5 V c t _ _ hr rfl
  · exact (wgt5 V c t _).trans (congrArg (V c main_arg13 : S128x128.Idx → EReal) (funext fun a => Fin.ext (by
      match a with
      | ⟨0, _⟩ => rfl
      | ⟨1, _⟩ => exact hc.symm)))
  · exact (bias5 V c t _).trans (congrArg (V c main_v30 : S1x128.Idx → EReal) (funext fun a => Fin.ext (by
      match a with
      | ⟨0, _⟩ => rfl
      | ⟨1, _⟩ => exact hc.symm)))

/-- An index of the result lies in point t's block exactly when each coordinate lies in the block's range. -/
theorem mem_block5 (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v31).slice (win5_3.rect t)).set ↔ _
  rw [View.set_slice_whole, Rect.mem_set_unit]
  exact Iff.rfl

/-- Row r of the result is in the block of point r / 5000, which is written back. -/
theorem covered5 (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  have ht : (i 0).val / 5000 < cfg5.N := by rw [hN]; omega
  obtain ⟨-, -, -, -, -, -, e0, e1⟩ := blockIdx5 ⟨(i 0).val / 5000, ht⟩
  refine ⟨⟨(i 0).val / 5000, ht⟩, flush5_3 _, ?_⟩
  rw [mem_block5]
  intro a
  match a with
  | ⟨0, _⟩ =>
    show win5_3.index ⟨(i 0).val / 5000, ht⟩ 0 * 5000 ≤ (i 0).val
      ∧ (i 0).val < win5_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win5_3.index ⟨(i 0).val / 5000, ht⟩ 1 * 128 ≤ (i 1).val
      ∧ (i 1).val < win5_3.index ⟨(i 0).val / 5000, ht⟩ 1 * 128 + 128
    rw [e1]; omega

/-- The fourth dense layer's result array after its ten blocks: the dense layer with its rectifier of the arrays it was given. -/
theorem out5 (c : Dev nD) :
    (Gen.dat5 (F := Ideal) V c).arrAt 3 cfg5.N
      = Cert.GinSpec.linLayer (V c main_v29) (V c main_arg13) (fun q => V c main_v30 (ix2 0 q)) :=
  (dat5 (F := Ideal) V c).arrAt_eq_of_cover 3 (layer5 V c) (fun t _ => flushed5 V c t) covered5

end Cert.KernelIdeal.RegionValue

end
-- ==== Proof.KRegion6.lean ====
/-
  The last layer as one function of the whole arrays.

  Ten blocks of 5000 rows.  At block t the body reads rows 5000 t .. 5000 t + 4999 of the layer's input, the
  whole weight matrix and the whole bias row, and writes the same rows of the result; row r of the result is
  written by block r / 5000.  Every entry written is the dense layer's value at that entry, so the
  ten blocks are the restrictions of one function of the three arrays and cover the result.
-/
import proofs.«164340_j13975823581719_1_alg».proof.Proof.Gen.KernelIdeal.Frame
import proofs.«164340_j13975823581719_1_alg».proof.Proof.KPayload
import Idealize.ShloMosaic.Lib.Pipeline.Value

noncomputable section

open scoped BigOperators

namespace Cert.KernelIdeal.RegionValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The body's accesses start at the block's origin. -/
theorem origin6 : (![0, 0] : Fin 2 → Nat) = fun _ => 0 := funext fun a => by fin_cases a <;> rfl

/-- The block each window holds at point t: the row windows are at block t of the rows, the weight matrix and the
    bias row are whole. -/
theorem blockIdx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row y of the input window's block at point t is row 5000 t + y of the layer's input. -/
theorem feat6 (c : Dev nD) (t : Fin cfg6.N) (y : S5000x128.Idx) (i : S50000x128.Idx)
    (h0 : (i 0).val = t.val * 5000 + (y 0).val) (h1 : (i 1).val = (y 1).val) :
    (iblk6 V c 0 t : Vec Ideal S5000x128 .f32) y = (V c main_v31 : S50000x128.Idx → EReal) i := by
  obtain ⟨e0, e1, -⟩ := blockIdx6 t
  unfold iblk6
  rw [View.read_apply]
  show V c main_v31 _ = V c main_v31 _
  congr 1
  funext a
  apply Fin.ext
  match a with
  | ⟨0, _⟩ => show win6_0.index t 0 * 5000 + 1 * (y 0).val = (i 0).val; rw [e0, h0]; omega
  | ⟨1, _⟩ => show win6_0.index t 1 * 128 + 1 * (y 1).val = (i 1).val; rw [e1, h1]; omega

/-- The weight window's block is the weight matrix at every point. -/
theorem wgt6 (c : Dev nD) (t : Fin cfg6.N) (y : S128x64.Idx) :
    (iblk6 V c 1 t : Vec Ideal S128x64 .f32) y = (V c main_arg15 : S128x64.Idx → EReal) y := by
  obtain ⟨-, -, e0, e1, -⟩ := blockIdx6 t
  unfold iblk6
  rw [View.read_apply]
  show V c main_arg15 _ = V c main_arg15 _
  congr 1
  funext a
  apply Fin.ext
  match a with
  | ⟨0, _⟩ => show win6_1.index t 0 * 128 + 1 * (y 0).val = (y 0).val; rw [e0]; omega
  | ⟨1, _⟩ => show win6_1.index t 1 * 64 + 1 * (y 1).val = (y 1).val; rw [e1]; omega

/-- The bias window's block is the bias row at every point. -/
theorem bias6 (c : Dev nD) (t : Fin cfg6.N) (y : S1x64.Idx) :
    (iblk6 V c 2 t : Vec Ideal S1x64 .f32) y = (V c main_v32 : S1x64.Idx → EReal) y := by
  obtain ⟨-, -, -, -, e0, e1, -⟩ := blockIdx6 t
  unfold iblk6
  rw [View.read_apply]
  show V c main_v32 _ = V c main_v32 _
  congr 1
  funext a
  apply Fin.ext
  match a with
  | ⟨0, _⟩ => show win6_2.index t 0 * 1 + 1 * (y 0).val = (y 0).val; rw [e0]; omega
  | ⟨1, _⟩ => show win6_2.index t 1 * 64 + 1 * (y 1).val = (y 1).val; rw [e1]; omega

/-- What the layer computes from the arrays it is given. -/
abbrev layer6 (c : Dev nD) : S50000x64.Idx → EReal :=
  Cert.GinSpec.affine (V c main_v31) (V c main_arg15) (fun q => V c main_v32 (ix2 0 q))

/-- What point t writes back is block t of the layer's value. -/
theorem flushed6 (c : Dev nD) (t : Fin cfg6.N) :
    (dat6 (F := Ideal) V c).flushed 3 t = ((cfg6.win 3).blk t).view.read (Elt Ideal) (layer6 V c) := by
  show (cfg6.win 3).cut (grid6.coords t) ((dat6 V c).after 3 t) = _
  rw [after6_3]
  unfold out6_3
  rw [View.canon_unit_zero origin6]
  simp only [View.ld_unit_zero (S := S5000x128) origin6, View.ld_unit_zero (S := S128x64) origin6,
    View.ld_unit_zero (S := S1x64) origin6]
  obtain ⟨-, -, -, -, -, -, e0, e1⟩ := blockIdx6 t
  funext j
  show k6_pay1 (F := Ideal) (iblk6 V c 0 t) (iblk6 V c 1 t) (iblk6 V c 2 t) j
    = layer6 V c (((cfg6.win 3).blk t).view.emb j)
  have hr : ((((cfg6.win 3).blk t).view.emb j) 0).val = t.val * 5000 + (j 0).val := by
    show win6_3.index t 0 * 5000 + 1 * (j 0).val = _; rw [e0]; omega
  have hc : ((((cfg6.win 3).blk t).view.emb j) 1).val = (j 1).val := by
    show win6_3.index t 1 * 64 + 1 * (j 1).val = _; rw [e1]; omega
  refine ((congrArg _ (eq_ix2 j)).trans (pay6_at _ _ _ (j 0) (j 1))).trans ?_
  refine congrArg₂ (· + ·) (Finset.sum_congr rfl fun k _ => congrArg₂ (· * ·) ?_ ?_) ?_
  · exact feat6 V c t _ _ hr rfl
  · exact (wgt6 V c t _).trans (congrArg (V c main_arg15 : S128x64.Idx → EReal) (funext fun a => Fin.ext (by
      match a with
      | ⟨0, _⟩ => rfl
      | ⟨1, _⟩ => exact hc.symm)))
  · exact (bias6 V c t _).trans (congrArg (V c main_v32 : S1x64.Idx → EReal) (funext fun a => Fin.ext (by
      match a with
      | ⟨0, _⟩ => rfl
      | ⟨1, _⟩ => exact hc.symm)))

/-- An index of the result lies in point t's block exactly when each coordinate lies in the block's range. -/
theorem mem_block6 (t : Fin cfg6.N) (i : S50000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v33).slice (win6_3.rect t)).set ↔ _
  rw [View.set_slice_whole, Rect.mem_set_unit]
  exact Iff.rfl

/-- Row r of the result is in the block of point r / 5000, which is written back. -/
theorem covered6 (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 10 := N_6
  have ht : (i 0).val / 5000 < cfg6.N := by rw [hN]; omega
  obtain ⟨-, -, -, -, -, -, e0, e1⟩ := blockIdx6 ⟨(i 0).val / 5000, ht⟩
  refine ⟨⟨(i 0).val / 5000, ht⟩, flush6_3 _, ?_⟩
  rw [mem_block6]
  intro a
  match a with
  | ⟨0, _⟩ =>
    show win6_3.index ⟨(i 0).val / 5000, ht⟩ 0 * 5000 ≤ (i 0).val
      ∧ (i 0).val < win6_3.index ⟨(i 0).val / 5000, ht⟩ 0 * 5000 + 5000
    rw [e0]; show (i 0).val / 5000 * 5000 ≤ (i 0).val ∧ (i 0).val < (i 0).val / 5000 * 5000 + 5000; omega
  | ⟨1, _⟩ =>
    show win6_3.index ⟨(i 0).val / 5000, ht⟩ 1 * 64 ≤ (i 1).val
      ∧ (i 1).val < win6_3.index ⟨(i 0).val / 5000, ht⟩ 1 * 64 + 64
    rw [e1]; omega

/-- The last layer's result array after its ten blocks: the dense layer of the arrays it was given. -/
theorem out6 (c : Dev nD) :
    (Gen.dat6 (F := Ideal) V c).arrAt 3 cfg6.N
      = Cert.GinSpec.affine (V c main_v31) (V c main_arg15) (fun q => V c main_v32 (ix2 0 q)) :=
  (dat6 (F := Ideal) V c).arrAt_eq_of_cover 3 (layer6 V c) (fun t _ => flushed6 V c t) covered6

end Cert.KernelIdeal.RegionValue

end
-- ==== Proof.KRegions.lean ====
/-
  The seven layers of the network, each as one function of the whole arrays it is given: two graph layers,
  four dense layers with the leaky rectifier, and the last dense layer without it.  Each is proved in its own
  module; this one only gathers them.
-/
import proofs.«164340_j13975823581719_1_alg».proof.Proof.KRegion0
import proofs.«164340_j13975823581719_1_alg».proof.Proof.KRegion1
import proofs.«164340_j13975823581719_1_alg».proof.Proof.KRegion2
import proofs.«164340_j13975823581719_1_alg».proof.Proof.KRegion3
import proofs.«164340_j13975823581719_1_alg».proof.Proof.KRegion4
import proofs.«164340_j13975823581719_1_alg».proof.Proof.KRegion5
import proofs.«164340_j13975823581719_1_alg».proof.Proof.KRegion6
-- ==== Proof.RefOps.lean ====
/-
  The reference program's run as one straight line of host operations.

  The program is a graph network on a 50000 x 128 feature matrix: two graph layers, four dense layers and a
  last dense layer.  Each layer's rectifier is a call of a small function (a zero, its broadcast, the
  comparison z >= 0, the slope's conversion and broadcast, the product slope * z, and the choice between z
  and that product); here every call is written out at its place, over the buffers that call uses, so that
  the whole program is a list of 104 operations run in order.  A program of that form ends, on every device,
  with each buffer holding the fold of the operations' results over the contents it started with.
-/
import proofs.«164340_j13975823581719_1_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Facts]
open Facts₀ Facts

/-- The program's 104 operations, in order; the seven operations of each rectifier call stand where the call is. -/
abbrev ops : List (HloOp τ sig (Elt F)) :=
  [ nullary main_c (constantI S_ 32 0#32),
    unary main_c main_v0 (broadcastInDim S600000 ![] bcast_S_S600000 : (⟨S_, .i32⟩ : BufTy).Contents (Elt F) → (⟨S600000, .i32⟩ : BufTy).Contents (Elt F)),
    binary main_arg1 main_v0 main_v1 (cmpi .slt : (⟨S600000, .i32⟩ : BufTy).Contents (Elt F) → (⟨S600000, .i32⟩ : BufTy).Contents (Elt F) → (⟨S600000, .i1⟩ : BufTy).Contents (Elt F)),
    nullary main_c_0 (constantI S_ 32 50000#32),
    unary main_c_0 main_v2 (broadcastInDim S600000 ![] bcast_S_S600000 : (⟨S_, .i32⟩ : BufTy).Contents (Elt F) → (⟨S600000, .i32⟩ : BufTy).Contents (Elt F)),
    binary main_arg1 main_v2 main_v3 (addi : (⟨S600000, .i32⟩ : BufTy).Contents (Elt F) → (⟨S600000, .i32⟩ : BufTy).Contents (Elt F) → (⟨S600000, .i32⟩ : BufTy).Contents (Elt F)),
    ternary main_v1 main_v3 main_arg1 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v4 main_v5 (broadcastInDim S600000x1 ![0] bcast_S600000_S600000x1_0 : (⟨S600000, .i32⟩ : BufTy).Contents (Elt F) → (⟨S600000x1, .i32⟩ : BufTy).Contents (Elt F)),
    binary main_arg0 main_v5 main_v6 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S600000x1 ![0] bcast_S600000_S600000x1_0 : (⟨S600000, .i32⟩ : BufTy).Contents (Elt F) → (⟨S600000x1, .i32⟩ : BufTy).Contents (Elt F)),
    ternary main_v7 main_v8 main_v6 main_v9 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v9 main_v10 (addf : (⟨S50000x128, .f32⟩ : BufTy).Contents (Elt F) → (⟨S50000x128, .f32⟩ : BufTy).Contents (Elt F) → (⟨S50000x128, .f32⟩ : BufTy).Contents (Elt F)),
    binary main_v10 main_arg3 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S50000x128 ![0, 1] bcast_S1x128_S50000x128_0_1 : (⟨S1x128, .f32⟩ : BufTy).Contents (Elt F) → (⟨S50000x128, .f32⟩ : BufTy).Contents (Elt F)),
    binary main_v11 main_v13 main_v14 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x128 ![] bcast_S_S50000x128),
    TRef.binary (.of main_v14) main_call0.v0 main_call0.v1 (cmpf .oge),
    TRef.unary (.of main_cst_1) main_call0.v2 id,
    TRef.unary main_call0.v2 main_call0.v3 (broadcastInDim S50000x128 ![] bcast_S_S50000x128),
    TRef.binary main_call0.v3 (.of main_v14) main_call0.v4 mulf,
    TRef.ternary main_call0.v1 (.of main_v14) main_call0.v4 main_call0.call0.v0 select,
    nullary main_c_2 (constantI S_ 32 0#32),
    unary main_c_2 main_v16 (broadcastInDim S600000 ![] bcast_S_S600000 : (⟨S_, .i32⟩ : BufTy).Contents (Elt F) → (⟨S600000, .i32⟩ : BufTy).Contents (Elt F)),
    binary main_arg1 main_v16 main_v17 (cmpi .slt : (⟨S600000, .i32⟩ : BufTy).Contents (Elt F) → (⟨S600000, .i32⟩ : BufTy).Contents (Elt F) → (⟨S600000, .i1⟩ : BufTy).Contents (Elt F)),
    nullary main_c_3 (constantI S_ 32 50000#32),
    unary main_c_3 main_v18 (broadcastInDim S600000 ![] bcast_S_S600000 : (⟨S_, .i32⟩ : BufTy).Contents (Elt F) → (⟨S600000, .i32⟩ : BufTy).Contents (Elt F)),
    binary main_arg1 main_v18 main_v19 (addi : (⟨S600000, .i32⟩ : BufTy).Contents (Elt F) → (⟨S600000, .i32⟩ : BufTy).Contents (Elt F) → (⟨S600000, .i32⟩ : BufTy).Contents (Elt F)),
    ternary main_v17 main_v19 main_arg1 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v20 main_v21 (broadcastInDim S600000x1 ![0] bcast_S600000_S600000x1_0 : (⟨S600000, .i32⟩ : BufTy).Contents (Elt F) → (⟨S600000x1, .i32⟩ : BufTy).Contents (Elt F)),
    binary main_v15 main_v21 main_v22 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    nullary main_cst_4 (constant S_ .f32 0x00000000#32),
    unary main_cst_4 main_v23 (broadcastInDim S50000x128 ![] bcast_S_S50000x128 : (⟨S_, .f32⟩ : BufTy).Contents (Elt F) → (⟨S50000x128, .f32⟩ : BufTy).Contents (Elt F)),
    unary main_arg2 main_v24 (broadcastInDim S600000x1 ![0] bcast_S600000_S600000x1_0 : (⟨S600000, .i32⟩ : BufTy).Contents (Elt F) → (⟨S600000x1, .i32⟩ : BufTy).Contents (Elt F)),
    ternary main_v23 main_v24 main_v22 main_v25 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_v15 main_v25 main_v26 (addf : (⟨S50000x128, .f32⟩ : BufTy).Contents (Elt F) → (⟨S50000x128, .f32⟩ : BufTy).Contents (Elt F) → (⟨S50000x128, .f32⟩ : BufTy).Contents (Elt F)),
    binary main_v26 main_arg5 main_v27 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v28 (broadcastInDim S1x128 ![1] bcast_S128_S1x128_1 : (⟨S128, .f32⟩ : BufTy).Contents (Elt F) → (⟨S1x128, .f32⟩ : BufTy).Contents (Elt F)),
    unary main_v28 main_v29 (broadcastInDim S50000x128 ![0, 1] bcast_S1x128_S50000x128_0_1 : (⟨S1x128, .f32⟩ : BufTy).Contents (Elt F) → (⟨S50000x128, .f32⟩ : BufTy).Contents (Elt F)),
    binary main_v27 main_v29 main_v30 (addf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3C23D70A#32),
    TRef.nullary main_call1.cst (constant S_ .f32 0x00000000#32),
    TRef.unary main_call1.cst main_call1.v0 (broadcastInDim S50000x128 ![] bcast_S_S50000x128),
    TRef.binary (.of main_v30) main_call1.v0 main_call1.v1 (cmpf .oge),
    TRef.unary (.of main_cst_5) main_call1.v2 id,
    TRef.unary main_call1.v2 main_call1.v3 (broadcastInDim S50000x128 ![] bcast_S_S50000x128),
    TRef.binary main_call1.v3 (.of main_v30) main_call1.v4 mulf,
    TRef.ternary main_call1.v1 (.of main_v30) main_call1.v4 main_call1.call0.v0 select,
    binary main_v31 main_arg7 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v33 (broadcastInDim S1x128 ![1] bcast_S128_S1x128_1 : (⟨S128, .f32⟩ : BufTy).Contents (Elt F) → (⟨S1x128, .f32⟩ : BufTy).Contents (Elt F)),
    unary main_v33 main_v34 (broadcastInDim S50000x128 ![0, 1] bcast_S1x128_S50000x128_0_1 : (⟨S1x128, .f32⟩ : BufTy).Contents (Elt F) → (⟨S50000x128, .f32⟩ : BufTy).Contents (Elt F)),
    binary main_v32 main_v34 main_v35 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3C23D70A#32),
    TRef.nullary main_call2.cst (constant S_ .f32 0x00000000#32),
    TRef.unary main_call2.cst main_call2.v0 (broadcastInDim S50000x128 ![] bcast_S_S50000x128),
    TRef.binary (.of main_v35) main_call2.v0 main_call2.v1 (cmpf .oge),
    TRef.unary (.of main_cst_6) main_call2.v2 id,
    TRef.unary main_call2.v2 main_call2.v3 (broadcastInDim S50000x128 ![] bcast_S_S50000x128),
    TRef.binary main_call2.v3 (.of main_v35) main_call2.v4 mulf,
    TRef.ternary main_call2.v1 (.of main_v35) main_call2.v4 main_call2.call0.v0 select,
    binary main_v36 main_arg9 main_v37 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg10 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (addf : (⟨S50000x128, .f32⟩ : BufTy).Contents (Elt F) → (⟨S50000x128, .f32⟩ : BufTy).Contents (Elt F) → (⟨S50000x128, .f32⟩ : BufTy).Contents (Elt F)),
    nullary main_cst_7 (constant S_ .f32 0x3C23D70A#32),
    TRef.nullary main_call3.cst (constant S_ .f32 0x00000000#32),
    TRef.unary main_call3.cst main_call3.v0 (broadcastInDim S50000x128 ![] bcast_S_S50000x128),
    TRef.binary (.of main_v40) main_call3.v0 main_call3.v1 (cmpf .oge),
    TRef.unary (.of main_cst_7) main_call3.v2 id,
    TRef.unary main_call3.v2 main_call3.v3 (broadcastInDim S50000x128 ![] bcast_S_S50000x128),
    TRef.binary main_call3.v3 (.of main_v40) main_call3.v4 mulf,
    TRef.ternary main_call3.v1 (.of main_v40) main_call3.v4 main_call3.call0.v0 select,
    binary main_v41 main_arg11 main_v42 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v43 (broadcastInDim S1x128 ![1] bcast_S128_S1x128_1 : (⟨S128, .f32⟩ : BufTy).Contents (Elt F) → (⟨S1x128, .f32⟩ : BufTy).Contents (Elt F)),
    unary main_v43 main_v44 (broadcastInDim S50000x128 ![0, 1] bcast_S1x128_S50000x128_0_1 : (⟨S1x128, .f32⟩ : BufTy).Contents (Elt F) → (⟨S50000x128, .f32⟩ : BufTy).Contents (Elt F)),
    binary main_v42 main_v44 main_v45 (addf : (⟨S50000x128, .f32⟩ : BufTy).Contents (Elt F) → (⟨S50000x128, .f32⟩ : BufTy).Contents (Elt F) → (⟨S50000x128, .f32⟩ : BufTy).Contents (Elt F)),
    nullary main_cst_8 (constant S_ .f32 0x3C23D70A#32),
    TRef.nullary main_call4.cst (constant S_ .f32 0x00000000#32),
    TRef.unary main_call4.cst main_call4.v0 (broadcastInDim S50000x128 ![] bcast_S_S50000x128),
    TRef.binary (.of main_v45) main_call4.v0 main_call4.v1 (cmpf .oge),
    TRef.unary (.of main_cst_8) main_call4.v2 id,
    TRef.unary main_call4.v2 main_call4.v3 (broadcastInDim S50000x128 ![] bcast_S_S50000x128),
    TRef.binary main_call4.v3 (.of main_v45) main_call4.v4 mulf,
    TRef.ternary main_call4.v1 (.of main_v45) main_call4.v4 main_call4.call0.v0 select,
    binary main_v46 main_arg13 main_v47 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg14 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x3C23D70A#32),
    TRef.nullary main_call5.cst (constant S_ .f32 0x00000000#32),
    TRef.unary main_call5.cst main_call5.v0 (broadcastInDim S50000x128 ![] bcast_S_S50000x128),
    TRef.binary (.of main_v50) main_call5.v0 main_call5.v1 (cmpf .oge),
    TRef.unary (.of main_cst_9) main_call5.v2 id,
    TRef.unary main_call5.v2 main_call5.v3 (broadcastInDim S50000x128 ![] bcast_S_S50000x128),
    TRef.binary main_call5.v3 (.of main_v50) main_call5.v4 mulf,
    TRef.ternary main_call5.v1 (.of main_v50) main_call5.v4 main_call5.call0.v0 select,
    binary main_v51 main_arg15 main_v52 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg16 main_v53 (broadcastInDim S1x64 ![1] bcast_S64_S1x64_1 : (⟨S64, .f32⟩ : BufTy).Contents (Elt F) → (⟨S1x64, .f32⟩ : BufTy).Contents (Elt F)),
    unary main_v53 main_v54 (broadcastInDim S50000x64 ![0, 1] bcast_S1x64_S50000x64_0_1 : (⟨S1x64, .f32⟩ : BufTy).Contents (Elt F) → (⟨S50000x64, .f32⟩ : BufTy).Contents (Elt F)),
    binary main_v52 main_v54 main_v55 (addf : (⟨S50000x64, .f32⟩ : BufTy).Contents (Elt F) → (⟨S50000x64, .f32⟩ : BufTy).Contents (Elt F) → (⟨S50000x64, .f32⟩ : BufTy).Contents (Elt F)) ]

-- one hundred and four binds re-associated
set_option maxRecDepth 8192 in
set_option maxHeartbeats 4000000 in
/-- The program is that straight line: with the two functions' bodies put at their calls and the two halves of
    the program joined, both sides are one chain of steps once sequencing is re-associated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches only the device's own buffers. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub ..⟩

/-- From any memory with zero counters, every weakly fair execution of the program ends, and every final
    state has each buffer at the fold of the operations over the contents at the start. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefLayers.lean ====
/-
  The reference's layers, one at a time, as the specification's layers.

  A layer of the reference is a handful of whole-matrix operations: the matrix product of the features with
  the weights, the bias row broadcast to every row and added, and the rectifier written as a comparison with
  a broadcast zero, a product with the broadcast slope, and a choice between the two.  Read at one entry
  (r, q) these are: the sum over k of x(r,k) * W(k,q), plus b(q); and then z where z >= 0, slope * z
  elsewhere.  That is what the specification's dense layer, graph layer and last layer say entry by entry.
-/
import proofs.«164340_j13975823581719_1_alg».proof.ReferenceIdeal
import proofs.«164340_j13975823581719_1_alg».proof.Proof.Spec
import proofs.«164340_j13975823581719_1_alg».proof.Proof.LibPlainDot
import Idealize.ShloMosaic.Lib.Pipeline.Value

noncomputable section

namespace Cert.ReferenceIdeal.RefValue

open Cert.ReferenceIdeal Idealize.ShloMosaic Idealize.ShloMosaic.ValueIdx

variable [Facts]
open Facts₀ Facts

/-- The rectifier as the reference computes it on a whole matrix. -/
def leakyH (z : FVec Ideal S50000x128 .f32) : FVec Ideal S50000x128 .f32 :=
  select (cmpf .oge z (broadcastInDim S50000x128 ![] bcast_S_S50000x128 (constant (F := Ideal) S_ .f32 0x00000000#32)))
    z (mulf (broadcastInDim S50000x128 ![] bcast_S_S50000x128 (id (constant (F := Ideal) S_ .f32 0x3C23D70A#32))) z)

/-- A bias of 128 entries as a row, then as every row of a 50000 x 128 matrix. -/
def biasH (b : FVec Ideal S128 .f32) : FVec Ideal S50000x128 .f32 :=
  broadcastInDim S50000x128 ![0, 1] bcast_S1x128_S50000x128_0_1 (broadcastInDim S1x128 ![1] bcast_S128_S1x128_1 b)

/-- A bias of 64 entries as a row, then as every row of a 50000 x 64 matrix. -/
def biasH64 (b : FVec Ideal S64 .f32) : FVec Ideal S50000x64 .f32 :=
  broadcastInDim S50000x64 ![0, 1] bcast_S1x64_S50000x64_0_1 (broadcastInDim S1x64 ![1] bcast_S64_S1x64_1 b)

/-- The product with a 128 x 128 weight matrix, plus the bias. -/
def denseH (x : FVec Ideal S50000x128 .f32) (W : FVec Ideal S128x128 .f32) (b : FVec Ideal S128 .f32) :
    FVec Ideal S50000x128 .f32 :=
  addf (Host.dotGeneral (F := Ideal) dot_S50000x128_S128x128_S50000x128_1_0_0_1_n_n none x W) (biasH b)

/-- The product with the 128 x 64 weight matrix, plus the bias. -/
def denseH64 (x : FVec Ideal S50000x128 .f32) (W : FVec Ideal S128x64 .f32) (b : FVec Ideal S64 .f32) :
    FVec Ideal S50000x64 .f32 :=
  addf (Host.dotGeneral (F := Ideal) dot_S50000x128_S128x64_S50000x64_1_0_0_1_n_n none x W) (biasH64 b)

/-- At every entry the whole-matrix rectifier is the specification's rectifier of that entry: the broadcast zero
    and the broadcast slope are the two constants at every entry. -/
theorem leakyH_apply (z : FVec Ideal S50000x128 .f32) (i : S50000x128.Idx) : leakyH z i = Cert.GinSpec.leaky (z i) := rfl

theorem biasH_apply (b : FVec Ideal S128 .f32) (r : Fin 50000) (q : Fin 128) : biasH b (ix2 r q) = b (ix1 q) := by
  unfold biasH
  rw [broadcastInDim_apply (s := S1x128) (t := S50000x128) ![0, 1] bcast_S1x128_S50000x128_0_1 _ (ix2 r q) (ix2 (0 : Fin 1) q)
      (by intro a; match a with | ⟨0, _⟩ => rfl | ⟨1, _⟩ => rfl),
    broadcastInDim_apply (s := S128) (t := S1x128) ![1] bcast_S128_S1x128_1 _ (ix2 (0 : Fin 1) q) (ix1 q)
      (by intro a; match a with | ⟨0, _⟩ => rfl)]

theorem biasH64_apply (b : FVec Ideal S64 .f32) (r : Fin 50000) (q : Fin 64) : biasH64 b (ix2 r q) = b (ix1 q) := by
  unfold biasH64
  rw [broadcastInDim_apply (s := S1x64) (t := S50000x64) ![0, 1] bcast_S1x64_S50000x64_0_1 _ (ix2 r q) (ix2 (0 : Fin 1) q)
      (by intro a; match a with | ⟨0, _⟩ => rfl | ⟨1, _⟩ => rfl),
    broadcastInDim_apply (s := S64) (t := S1x64) ![1] bcast_S64_S1x64_1 _ (ix2 (0 : Fin 1) q) (ix1 q)
      (by intro a; match a with | ⟨0, _⟩ => rfl)]

/-- The reference's dimension numbers for the 128 x 128 products are those of a plain matrix product. -/
theorem dot128_plain : dot_S50000x128_S128x128_S50000x128_1_0_0_1_n_n = DotDims.plain 50000 128 128 := rfl

/-- And so are those of the last product. -/
theorem dot64_plain : dot_S50000x128_S128x64_S50000x64_1_0_0_1_n_n = DotDims.plain 50000 128 64 := rfl

/-- Entry (r, q) of the product plus the bias: the sum over k of x(r,k) * W(k,q), plus b(q). -/
theorem denseH_apply (x : FVec Ideal S50000x128 .f32) (W : FVec Ideal S128x128 .f32) (b : FVec Ideal S128 .f32)
    (r : Fin 50000) (q : Fin 128) :
    denseH x W b (ix2 r q) = (∑ k : Fin 128, x (ix2 r k) * W (ix2 k q)) + b (ix1 q) := by
  unfold denseH
  rw [addf_apply, biasH_apply, dot128_plain]
  exact congrArg (· + b (ix1 q)) (PlainDot.dotGeneral_apply none .single x W r q)

theorem denseH64_apply (x : FVec Ideal S50000x128 .f32) (W : FVec Ideal S128x64 .f32) (b : FVec Ideal S64 .f32)
    (r : Fin 50000) (q : Fin 64) :
    denseH64 x W b (ix2 r q) = (∑ k : Fin 128, x (ix2 r k) * W (ix2 k q)) + b (ix1 q) := by
  unfold denseH64
  rw [addf_apply, biasH64_apply, dot64_plain]
  exact congrArg (· + b (ix1 q)) (PlainDot.dotGeneral_apply none .single x W r q)

/-- A dense layer of the reference is the specification's dense layer. -/
theorem linH (x : FVec Ideal S50000x128 .f32) (W : FVec Ideal S128x128 .f32) (b : FVec Ideal S128 .f32) :
    leakyH (denseH x W b) = Cert.GinSpec.linLayer x W (fun q => b (ix1 q)) := by
  funext i
  obtain ⟨r, q, rfl⟩ : ∃ (r : Fin 50000) (q : Fin 128), i = ix2 r q := ⟨i 0, i 1, eq_ix2 i⟩
  rw [leakyH_apply, denseH_apply]
  rfl

/-- A graph layer of the reference, fed the features plus their neighbourhood sum, is the specification's graph layer. -/
theorem resH (x a : FVec Ideal S50000x128 .f32) (W : FVec Ideal S128x128 .f32) (b : FVec Ideal S128 .f32) :
    leakyH (denseH (addf x a) W b) = Cert.GinSpec.resLayer x a W (fun q => b (ix1 q)) := by
  funext i
  obtain ⟨r, q, rfl⟩ : ∃ (r : Fin 50000) (q : Fin 128), i = ix2 r q := ⟨i 0, i 1, eq_ix2 i⟩
  rw [leakyH_apply, denseH_apply]
  rfl

/-- The last layer of the reference is the specification's layer without the rectifier. -/
theorem lastH (x : FVec Ideal S50000x128 .f32) (W : FVec Ideal S128x64 .f32) (b : FVec Ideal S64 .f32) :
    denseH64 x W b = Cert.GinSpec.affine x W (fun q => b (ix1 q)) := by
  funext i
  obtain ⟨r, q, rfl⟩ : ∃ (r : Fin 50000) (q : Fin 64), i = ix2 r q := ⟨i 0, i 1, eq_ix2 i⟩
  rw [denseH64_apply]
  rfl

end Cert.ReferenceIdeal.RefValue

end
-- ==== Proof.RefNet.lean ====
/-
  The reference's network, layers composed, and the specification's network.

  The neighbourhood sum of the features (rows gathered along the edges' sources, added up at the edges'
  targets) is one function of the feature matrix once the edges are fixed.  A graph layer applies the
  rectified dense layer to the features plus their neighbourhood sum; the network is two graph layers, four
  dense layers and the last dense layer without the rectifier.  Written with the reference's whole-matrix
  layers it is the reference's composed term; written with the specification's layers it is the
  specification's network; the two agree layer by layer.
-/
import proofs.«164340_j13975823581719_1_alg».proof.Proof.RefLayers

noncomputable section

namespace Cert.ReferenceIdeal.RefValue

open Cert.ReferenceIdeal Idealize.ShloMosaic Idealize.ShloMosaic.ValueIdx

variable [Facts]
open Facts₀ Facts

/-- the reference's neighbourhood sum with the edges fixed -/
def aggR (src dst : IVec S600000 32) : FVec Ideal S50000x128 .f32 → FVec Ideal S50000x128 .f32 :=
  Cert.GinSpec.aggOf gather_S50000x128_S600000x1_S600000x128_1_0_n_n_0_1_1128 scatter_S50000x128_S600000x1_S600000x128_1_0_0_1 Facts₀.bcast_S_S600000 Facts₀.bcast_S600000_S600000x1_0 Facts₀.bcast_S_S50000x128 src dst

/-- A graph layer as the reference computes it. -/
def graphH (src dst : IVec S600000 32) (x : FVec Ideal S50000x128 .f32) (W : FVec Ideal S128x128 .f32) (b : FVec Ideal S128 .f32) :
    FVec Ideal S50000x128 .f32 :=
  leakyH (denseH (addf x (aggR src dst x)) W b)

/-- A dense layer as the reference computes it. -/
def layerH (x : FVec Ideal S50000x128 .f32) (W : FVec Ideal S128x128 .f32) (b : FVec Ideal S128 .f32) :
    FVec Ideal S50000x128 .f32 :=
  leakyH (denseH x W b)

/-- The whole network as the reference computes it: the layers' whole-matrix terms composed. -/
def outH (a0 : FVec Ideal S50000x128 .f32) (a1 a2 : IVec S600000 32)
    (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S128x128 .f32) (a10 : FVec Ideal S128 .f32) (a11 : FVec Ideal S128x128 .f32) (a12 : FVec Ideal S128 .f32) (a13 : FVec Ideal S128x128 .f32) (a14 : FVec Ideal S128 .f32) (a15 : FVec Ideal S128x64 .f32) (a16 : FVec Ideal S64 .f32) : FVec Ideal S50000x64 .f32 :=
  denseH64 (layerH (layerH (layerH (layerH (graphH a1 a2 (graphH a1 a2 a0 a3 a4) a5 a6) a7 a8) a9 a10) a11 a12) a13 a14) a15 a16

/-- The specification's network of the reference's arguments. -/
def out (a0 : FVec Ideal S50000x128 .f32) (a1 a2 : IVec S600000 32)
    (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S128x128 .f32) (a10 : FVec Ideal S128 .f32) (a11 : FVec Ideal S128x128 .f32) (a12 : FVec Ideal S128 .f32) (a13 : FVec Ideal S128x128 .f32) (a14 : FVec Ideal S128 .f32) (a15 : FVec Ideal S128x64 .f32) (a16 : FVec Ideal S64 .f32) : FVec Ideal S50000x64 .f32 :=
  Cert.GinSpec.net (aggR a1 a2) a0 a3 (fun q => a4 (ix1 q)) a5 (fun q => a6 (ix1 q)) a7 (fun q => a8 (ix1 q)) a9 (fun q => a10 (ix1 q)) a11 (fun q => a12 (ix1 q)) a13 (fun q => a14 (ix1 q)) a15 (fun q => a16 (ix1 q))

/-- Layer by layer, the reference's composed term is the specification's network. -/
theorem outH_eq (a0 : FVec Ideal S50000x128 .f32) (a1 a2 : IVec S600000 32)
    (a3 : FVec Ideal S128x128 .f32) (a4 : FVec Ideal S128 .f32) (a5 : FVec Ideal S128x128 .f32) (a6 : FVec Ideal S128 .f32) (a7 : FVec Ideal S128x128 .f32) (a8 : FVec Ideal S128 .f32) (a9 : FVec Ideal S128x128 .f32) (a10 : FVec Ideal S128 .f32) (a11 : FVec Ideal S128x128 .f32) (a12 : FVec Ideal S128 .f32) (a13 : FVec Ideal S128x128 .f32) (a14 : FVec Ideal S128 .f32) (a15 : FVec Ideal S128x64 .f32) (a16 : FVec Ideal S64 .f32) :
    outH a0 a1 a2 a3 a4 a5 a6 a7 a8 a9 a10 a11 a12 a13 a14 a15 a16 = out a0 a1 a2 a3 a4 a5 a6 a7 a8 a9 a10 a11 a12 a13 a14 a15 a16 := by
  unfold outH out graphH layerH Cert.GinSpec.net
  rw [resH, resH, linH, linH, linH, linH, lastH]

end Cert.ReferenceIdeal.RefValue

end
-- ==== Proof.RefRun.lean ====
/-
  The reference's result is the specification's network of its arguments.

  The fold of the 104 operations, read at the result buffer, is the layers' whole-matrix terms composed:
  twice "features plus neighbourhood sum, times weights, plus bias, rectified", four times "times weights,
  plus bias, rectified", once "times weights, plus bias".  The neighbourhood sum is carried as one function of
  the features and never opened.  Each layer's term is the specification's layer, so the composition is the
  specification's network.  No operation writes an argument, so each argument ends as it began.
-/
import proofs.«164340_j13975823581719_1_alg».proof.Proof.RefOps
import proofs.«164340_j13975823581719_1_alg».proof.Proof.RefNet

noncomputable section

namespace Cert.ReferenceIdeal.RefValue

open Cert.ReferenceIdeal Idealize.ShloMosaic Idealize.ShloMosaic.TcCoe Idealize.SL.Sem Idealize.ShloMosaic.StableHlo
open Idealize.ShloMosaic.ValueIdx

variable [Facts]
open Facts₀ Facts

attribute [local irreducible] Host.gather Host.scatterAdd in
set_option maxRecDepth 16384 in
set_option maxHeartbeats 1600000 in
/-- The fold read at the result buffer is the composed term: each operation's result at its own buffer is its
    function of its operands' contents, and at any other buffer what was there.  A rectifier's operations carry
    their values through the buffers' own types and back, which is the identity, and the slope's conversion is
    the identity; with those removed and the layers' names opened the two sides are the same term. -/
theorem after_out (V : Valuation τ sig (Elt Ideal)) :
    after (ops (F := Ideal)) V (main_v55 : DevRef τ sig)
      = outH (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  after_results_simp
  simp only [TRef.toBuf, TRef.ofBuf, cast_eq, id_eq, outH, graphH, layerH, leakyH, denseH, denseH64, biasH, biasH64, aggR,
    Cert.GinSpec.aggOf]

set_option maxRecDepth 16384 in
set_option maxHeartbeats 800000 in
theorem after_arg0 (V : Valuation τ sig (Elt Ideal)) :
    after (ops (F := Ideal)) V (main_arg0 : DevRef τ sig) = V (main_arg0 : DevRef τ sig) := by
  after_results_simp

set_option maxRecDepth 16384 in
set_option maxHeartbeats 800000 in
theorem after_arg1 (V : Valuation τ sig (Elt Ideal)) :
    after (ops (F := Ideal)) V (main_arg1 : DevRef τ sig) = V (main_arg1 : DevRef τ sig) := by
  after_results_simp

set_option maxRecDepth 16384 in
set_option maxHeartbeats 800000 in
theorem after_arg2 (V : Valuation τ sig (Elt Ideal)) :
    after (ops (F := Ideal)) V (main_arg2 : DevRef τ sig) = V (main_arg2 : DevRef τ sig) := by
  after_results_simp

set_option maxRecDepth 16384 in
set_option maxHeartbeats 800000 in
theorem after_arg3 (V : Valuation τ sig (Elt Ideal)) :
    after (ops (F := Ideal)) V (main_arg3 : DevRef τ sig) = V (main_arg3 : DevRef τ sig) := by
  after_results_simp

set_option maxRecDepth 16384 in
set_option maxHeartbeats 800000 in
theorem after_arg4 (V : Valuation τ sig (Elt Ideal)) :
    after (ops (F := Ideal)) V (main_arg4 : DevRef τ sig) = V (main_arg4 : DevRef τ sig) := by
  after_results_simp

set_option maxRecDepth 16384 in
set_option maxHeartbeats 800000 in
theorem after_arg5 (V : Valuation τ sig (Elt Ideal)) :
    after (ops (F := Ideal)) V (main_arg5 : DevRef τ sig) = V (main_arg5 : DevRef τ sig) := by
  after_results_simp

set_option maxRecDepth 16384 in
set_option maxHeartbeats 800000 in
theorem after_arg6 (V : Valuation τ sig (Elt Ideal)) :
    after (ops (F := Ideal)) V (main_arg6 : DevRef τ sig) = V (main_arg6 : DevRef τ sig) := by
  after_results_simp

set_option maxRecDepth 16384 in
set_option maxHeartbeats 800000 in
theorem after_arg7 (V : Valuation τ sig (Elt Ideal)) :
    after (ops (F := Ideal)) V (main_arg7 : DevRef τ sig) = V (main_arg7 : DevRef τ sig) := by
  after_results_simp

set_option maxRecDepth 16384 in
set_option maxHeartbeats 800000 in
theorem after_arg8 (V : Valuation τ sig (Elt Ideal)) :
    after (ops (F := Ideal)) V (main_arg8 : DevRef τ sig) = V (main_arg8 : DevRef τ sig) := by
  after_results_simp

set_option maxRecDepth 16384 in
set_option maxHeartbeats 800000 in
theorem after_arg9 (V : Valuation τ sig (Elt Ideal)) :
    after (ops (F := Ideal)) V (main_arg9 : DevRef τ sig) = V (main_arg9 : DevRef τ sig) := by
  after_results_simp

set_option maxRecDepth 16384 in
set_option maxHeartbeats 800000 in
theorem after_arg10 (V : Valuation τ sig (Elt Ideal)) :
    after (ops (F := Ideal)) V (main_arg10 : DevRef τ sig) = V (main_arg10 : DevRef τ sig) := by
  after_results_simp

set_option maxRecDepth 16384 in
set_option maxHeartbeats 800000 in
theorem after_arg11 (V : Valuation τ sig (Elt Ideal)) :
    after (ops (F := Ideal)) V (main_arg11 : DevRef τ sig) = V (main_arg11 : DevRef τ sig) := by
  after_results_simp

set_option maxRecDepth 16384 in
set_option maxHeartbeats 800000 in
theorem after_arg12 (V : Valuation τ sig (Elt Ideal)) :
    after (ops (F := Ideal)) V (main_arg12 : DevRef τ sig) = V (main_arg12 : DevRef τ sig) := by
  after_results_simp

set_option maxRecDepth 16384 in
set_option maxHeartbeats 800000 in
theorem after_arg13 (V : Valuation τ sig (Elt Ideal)) :
    after (ops (F := Ideal)) V (main_arg13 : DevRef τ sig) = V (main_arg13 : DevRef τ sig) := by
  after_results_simp

set_option maxRecDepth 16384 in
set_option maxHeartbeats 800000 in
theorem after_arg14 (V : Valuation τ sig (Elt Ideal)) :
    after (ops (F := Ideal)) V (main_arg14 : DevRef τ sig) = V (main_arg14 : DevRef τ sig) := by
  after_results_simp

set_option maxRecDepth 16384 in
set_option maxHeartbeats 800000 in
theorem after_arg15 (V : Valuation τ sig (Elt Ideal)) :
    after (ops (F := Ideal)) V (main_arg15 : DevRef τ sig) = V (main_arg15 : DevRef τ sig) := by
  after_results_simp

set_option maxRecDepth 16384 in
set_option maxHeartbeats 800000 in
theorem after_arg16 (V : Valuation τ sig (Elt Ideal)) :
    after (ops (F := Ideal)) V (main_arg16 : DevRef τ sig) = V (main_arg16 : DevRef τ sig) := by
  after_results_simp

/-- On every device, from any memory with zero counters: every weakly fair execution of the reference ends with
    the result buffer at the specification's network of the arguments, and every argument as it began. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v55) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
      ⟨(h c main_v55).trans ((after_out _).trans (outH_eq ..)),
       (h c main_arg0).trans (after_arg0 _),
       (h c main_arg1).trans (after_arg1 _),
       (h c main_arg2).trans (after_arg2 _),
       (h c main_arg3).trans (after_arg3 _),
       (h c main_arg4).trans (after_arg4 _),
       (h c main_arg5).trans (after_arg5 _),
       (h c main_arg6).trans (after_arg6 _),
       (h c main_arg7).trans (after_arg7 _),
       (h c main_arg8).trans (after_arg8 _),
       (h c main_arg9).trans (after_arg9 _),
       (h c main_arg10).trans (after_arg10 _),
       (h c main_arg11).trans (after_arg11 _),
       (h c main_arg12).trans (after_arg12 _),
       (h c main_arg13).trans (after_arg13 _),
       (h c main_arg14).trans (after_arg14 _),
       (h c main_arg15).trans (after_arg15 _),
       (h c main_arg16).trans (after_arg16 _)⟩)
    (run_main (F := Ideal) m ρ)

end Cert.ReferenceIdeal.RefValue

end
-- ==== Proof.lean ====
/-
  The certificate: a GIN network computed by seven pipelined kernels against the same network written with
  whole-array operations.

  Both programs compute, on 50000 nodes with 128 features and 600000 edges, two graph layers
  h' = leaky((h + agg h) W + b), four dense layers h' = leaky(h W + b) and a last dense layer h W + b into 64
  features, where agg h is the neighbourhood sum of h (the rows of h gathered along the edges' sources and
  added up at the edges' targets) and leaky keeps z when z >= 0 and scales it by the single-precision word
  nearest 0.01 otherwise.  The kernel program computes agg h by the same host operations as the reference and
  each layer by a kernel over ten blocks of 5000 rows: the block's rows of h (plus those of agg h), rounded to
  bf16, times W rounded to bf16, accumulated from zero, plus the bias row, then the comparison and the
  choice.  Over the extended reals the rounding is the identity and a product accumulated from zero is the
  sum over the 128 columns, so entry (r, q) of every layer is the same expression on both sides:
  the sum over k of the previous layer's (r, k) entry times W(k, q), plus b(q), through the same leaky
  rectifier.  No law beyond reading both sums index by index is used, and the precondition is never opened.

  The three programs' runs: the word-level kernel program's frame and the idealized one's are the generated
  frames; the idealized kernel program's run with its result named (KRun), the contents of its buffers
  between regions (KKept, KChain) and each region's output array as a layer of its input arrays (KRegion0
  to KRegion6, over KPayload) give its result as the specification's network (Spec); the reference's run
  is written out operation by operation (RefOps) and read layer by layer (RefLayers, RefRun) as the same
  network.  The ideal pass rewrote nothing, so the kernel program's idealization is its own text.
-/
import proofs.«164340_j13975823581719_1_alg».proof.Defs
import proofs.«164340_j13975823581719_1_alg».proof.Proof.Gen.Kernel
import proofs.«164340_j13975823581719_1_alg».proof.Proof.Gen.Kernel.Skeleton
import proofs.«164340_j13975823581719_1_alg».proof.Proof.Gen.Kernel.Launch
import proofs.«164340_j13975823581719_1_alg».proof.Proof.Gen.Kernel.Points
import proofs.«164340_j13975823581719_1_alg».proof.Proof.Gen.Kernel.Frame
import proofs.«164340_j13975823581719_1_alg».proof.Proof.Gen.KernelIdeal
import proofs.«164340_j13975823581719_1_alg».proof.Proof.Gen.KernelIdeal.Skeleton
import proofs.«164340_j13975823581719_1_alg».proof.Proof.Gen.KernelIdeal.Launch
import proofs.«164340_j13975823581719_1_alg».proof.Proof.Gen.KernelIdeal.Points
import proofs.«164340_j13975823581719_1_alg».proof.Proof.Gen.KernelIdeal.Frame
import proofs.«164340_j13975823581719_1_alg».proof.Proof.Gen.ReferenceIdeal
import proofs.«164340_j13975823581719_1_alg».proof.Proof.Gen.Pre_finite_inputs
import proofs.«164340_j13975823581719_1_alg».proof.Proof.KRun
import proofs.«164340_j13975823581719_1_alg».proof.Proof.KChain
import proofs.«164340_j13975823581719_1_alg».proof.Proof.KRegions
import proofs.«164340_j13975823581719_1_alg».proof.Proof.RefRun
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Each region's output array is the layer of its input arrays, whatever the region finds on entry. -/
theorem regionEqs (c : Dev Cert.KernelIdeal.nD) : Cert.KernelIdeal.ChainValue.RegionEqs c :=
  ⟨fun V => Cert.KernelIdeal.RegionValue.out0 V c, fun V => Cert.KernelIdeal.RegionValue.out1 V c,
   fun V => Cert.KernelIdeal.RegionValue.out2 V c, fun V => Cert.KernelIdeal.RegionValue.out3 V c,
   fun V => Cert.KernelIdeal.RegionValue.out4 V c, fun V => Cert.KernelIdeal.RegionValue.out5 V c,
   fun V => Cert.KernelIdeal.RegionValue.out6 V c⟩

/-- From memories that agree on the arguments both idealized programs end with the network of those
    arguments in their result buffers: the kernel program's by the fold through its regions, the
    reference's by its operations read layer by layer; the two neighbourhood sums are one function because
    the two programs' gather and scatter records have the same fields. -/
theorem algebraic : Cert.algebraic_KernelIdeal_ReferenceIdeal := by
  intro m ρ m' ρ' _ hagree
  refine ⟨fun c => Cert.KernelIdeal.ChainValue.outK m c, ?_, ?_⟩
  · exact (θ_run Cert.KernelIdeal.defs _ _).mono
      (fun r h c => ⟨(h c).1.trans (Cert.KernelIdeal.ChainValue.result m ρ c (regionEqs c)), (h c).2⟩)
      (Cert.KernelIdeal.RunValue.run_main m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]
    refine Eq.trans ?_ (Cert.KernelIdeal.ChainValue.outK_eq_net m c).symm
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
